-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.truncf_extf.Statement Cert.KernelIdeal.S1024x1024 .f32 .bf16
  ∧ IdealRules.truncf_extf.Statement Cert.KernelIdeal.S1024x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v61)) (v1 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_v62) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x256x256 : Shape := ⟨3, ![3, 256, 256]⟩
abbrev S256x256x16 : Shape := ⟨3, ![256, 256, 16]⟩
abbrev S16x1024 : Shape := ⟨2, ![16, 1024]⟩
abbrev S1024 : Shape := ⟨1, ![1024]⟩
abbrev S1024x1024 : Shape := ⟨2, ![1024, 1024]⟩
abbrev S1024x24 : Shape := ⟨2, ![1024, 24]⟩
abbrev S24 : Shape := ⟨1, ![24]⟩
abbrev S_ : Shape := ⟨0, ![]⟩

class Facts : Prop where
  bcast_S_S3x256x256 : S_.BroadcastsInDim S3x256x256 (![] : Fin 0 → Fin S3x256x256.rank)
  reducesTo_S3x256x256_S_d0_1_2 : S3x256x256.ReducesTo [0, 1, 2] S_
  h_S_ : 0 < S_.numel

variable [Facts]

def fn {F : FTy → Type} [FloatOps F] (main_arg0 : FVec F S3x256x256 .f32) (main_arg1 : IVec S256x256x16 1) (main_arg2 : IVec S16x1024 1) (main_arg3 : IVec S1024 32) (main_arg4 : IVec S1024x1024 1) (main_arg5 : IVec S1024 32) (main_arg6 : IVec S1024x24 1) (main_arg7 : IVec S24 32) : IVec S_ 1 :=
  let main_v0 : FVec F S3x256x256 .f32 := Host.absf main_arg0
  let main_cst : FVec F S_ .f32 := constant S_ .f32 0x7F800000#32
  let main_v1 : FVec F S3x256x256 .f32 := broadcastInDim S3x256x256 ![] bcast_S_S3x256x256 main_cst
  let main_v2 : IVec S3x256x256 1 := cmpf .olt main_v0 main_v1
  let main_c : IVec S_ 1 := constantI S_ 1 1#1
  let main_v3 : IVec S_ 1 := (fun x v => Host.reduce IntOp.andi x v reducesTo_S3x256x256_S_d0_1_2 h_S_) main_v2 main_c
  main_v3
-- ==== Kernel.lean ====
abbrev S3x256x256 : Shape := ⟨3, ![3, 256, 256]⟩
abbrev S256x256x16 : Shape := ⟨3, ![256, 256, 16]⟩
abbrev S16x1024 : Shape := ⟨2, ![16, 1024]⟩
abbrev S1024 : Shape := ⟨1, ![1024]⟩
abbrev S1024x1024 : Shape := ⟨2, ![1024, 1024]⟩
abbrev S1024x24 : Shape := ⟨2, ![1024, 24]⟩
abbrev S24 : Shape := ⟨1, ![24]⟩
abbrev S65536x16 : Shape := ⟨2, ![65536, 16]⟩
abbrev S_ : Shape := ⟨0, ![]⟩
abbrev S1x1024 : Shape := ⟨2, ![1, 1024]⟩
abbrev S1x24 : Shape := ⟨2, ![1, 24]⟩
abbrev S24x3 : Shape := ⟨2, ![24, 3]⟩
abbrev S24x1 : Shape := ⟨2, ![24, 1]⟩
abbrev S24x2 : Shape := ⟨2, ![24, 2]⟩
abbrev S65536x3 : Shape := ⟨2, ![65536, 3]⟩
abbrev S1024x16 : Shape := ⟨2, ![1024, 16]⟩
abbrev S1024x3 : Shape := ⟨2, ![1024, 3]⟩
abbrev S1024x1 : Shape := ⟨2, ![1024, 1]⟩
abbrev S256x256x3 : Shape := ⟨3, ![256, 256, 3]⟩

abbrev nBuf : Space → Nat
  | .hbm => 125
  | .vmem => 11
  | .smem => 0
  | _ => 0

abbrev bufTy : (tb : Table) → Fin (tcTables nBuf tb) → BufTy
  | .hbm, ⟨0, _⟩ => ⟨S3x256x256, .f32⟩
  | .hbm, ⟨1, _⟩ => ⟨S256x256x16, .i1⟩
  | .hbm, ⟨2, _⟩ => ⟨S16x1024, .i1⟩
  | .hbm, ⟨3, _⟩ => ⟨S1024, .i32⟩
  | .hbm, ⟨4, _⟩ => ⟨S1024x1024, .i1⟩
  | .hbm, ⟨5, _⟩ => ⟨S1024, .i32⟩
  | .hbm, ⟨6, _⟩ => ⟨S1024x24, .i1⟩
  | .hbm, ⟨7, _⟩ => ⟨S24, .i32⟩
  | .hbm, ⟨8, _⟩ => ⟨S65536x16, .i1⟩
  | .hbm, ⟨9, _⟩ => ⟨S65536x16, .bf16⟩
  | .hbm, ⟨10, _⟩ => ⟨S16x1024, .f32⟩
  | .hbm, ⟨11, _⟩ => ⟨S_, .f32⟩
  | .hbm, ⟨12, _⟩ => ⟨S1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S1x1024, .f32⟩
  | .hbm, ⟨17, _⟩ => ⟨S_, .f32⟩
  | .hbm, ⟨18, _⟩ => ⟨S1x1024, .f32⟩
  | .hbm, ⟨19, _⟩ => ⟨S1x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S16x1024, .bf16⟩
  | .hbm, ⟨24, _⟩ => ⟨S1024x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S1024, .f32⟩
  | .hbm, ⟨29, _⟩ => ⟨S1x1024, .f32⟩
  | .hbm, ⟨30, _⟩ => ⟨S1x1024, .f32⟩
  | .hbm, ⟨31, _⟩ => ⟨S_, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | .hbm, ⟨37, _⟩ => ⟨S1024x1024, .bf16⟩
  | .hbm, ⟨38, _⟩ => ⟨S1024x24, .f32⟩
  | .hbm, ⟨39, _⟩ => ⟨S_, .f32⟩
  | .hbm, ⟨40, _⟩ => ⟨S24, .f32⟩
  | .hbm, ⟨41, _⟩ => ⟨S1x24, .f32⟩
  | .hbm, ⟨42, _⟩ => ⟨S24, .f32⟩
  | .hbm, ⟨43, _⟩ => ⟨S1x24, .f32⟩
  | .hbm, ⟨44, _⟩ => ⟨S1x24, .f32⟩
  | .hbm, ⟨45, _⟩ => ⟨S_, .f32⟩
  | .hbm, ⟨46, _⟩ => ⟨S1x24, .f32⟩
  | .hbm, ⟨47, _⟩ => ⟨S1x24, .f32⟩
  | .hbm, ⟨48, _⟩ => ⟨S_, .f32⟩
  | .hbm, ⟨49, _⟩ => ⟨S1x24, .f32⟩
  | .hbm, ⟨50, _⟩ => ⟨S1x24, .f32⟩
  | .hbm, ⟨51, _⟩ => ⟨S1024x24, .bf16⟩
  | .hbm, ⟨52, _⟩ => ⟨S24, .i32⟩
  | .hbm, ⟨53, _⟩ => ⟨S_, .i32⟩
  | .hbm, ⟨54, _⟩ => ⟨S_, .i32⟩
  | .hbm, ⟨55, _⟩ => ⟨S24, .i32⟩
  | .hbm, ⟨56, _⟩ => ⟨S24, .i32⟩
  | .hbm, ⟨57, _⟩ => ⟨S24, .i32⟩
  | .hbm, ⟨58, _⟩ => ⟨S_, .i32⟩
  | .hbm, ⟨59, _⟩ => ⟨S24, .i32⟩
  | .hbm, ⟨60, _⟩ => ⟨S24, .i1⟩
  | .hbm, ⟨61, _⟩ => ⟨S24, .i32⟩
  | .hbm, ⟨62, _⟩ => ⟨S24, .i32⟩
  | .hbm, ⟨63, _⟩ => ⟨S_, .i32⟩
  | .hbm, ⟨64, _⟩ => ⟨S24, .i32⟩
  | .hbm, ⟨65, _⟩ => ⟨S24, .i1⟩
  | .hbm, ⟨66, _⟩ => ⟨S24, .i1⟩
  | .hbm, ⟨67, _⟩ => ⟨S_, .i32⟩
  | .hbm, ⟨68, _⟩ => ⟨S24, .i32⟩
  | .hbm, ⟨69, _⟩ => ⟨S24, .i32⟩
  | .hbm, ⟨70, _⟩ => ⟨S24, .i32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S_, .i1⟩
  | .hbm, ⟨75, _⟩ => ⟨S_, .i32⟩
  | .hbm, ⟨76, _⟩ => ⟨S_, .i32⟩
  | .hbm, ⟨77, _⟩ => ⟨S24, .i32⟩
  | .hbm, ⟨78, _⟩ => ⟨S24, .i32⟩
  | .hbm, ⟨79, _⟩ => ⟨S_, .i32⟩
  | .hbm, ⟨80, _⟩ => ⟨S24, .i32⟩
  | .hbm, ⟨81, _⟩ => ⟨S24, .i1⟩
  | .hbm, ⟨82, _⟩ => ⟨S_, .i32⟩
  | .hbm, ⟨83, _⟩ => ⟨S24, .i32⟩
  | .hbm, ⟨84, _⟩ => ⟨S24, .i1⟩
  | .hbm, ⟨85, _⟩ => ⟨S_, .i32⟩
  | .hbm, ⟨86, _⟩ => ⟨S_, .i1⟩
  | .hbm, ⟨87, _⟩ => ⟨S24, .i1⟩
  | .hbm, ⟨88, _⟩ => ⟨S24, .i1⟩
  | .hbm, ⟨89, _⟩ => ⟨S24, .i1⟩
  | .hbm, ⟨90, _⟩ => ⟨S24, .i32⟩
  | .hbm, ⟨91, _⟩ => ⟨S24, .i32⟩
  | .hbm, ⟨92, _⟩ => ⟨S24, .i32⟩
  | .hbm, ⟨93, _⟩ => ⟨S_, .i32⟩
  | .hbm, ⟨94, _⟩ => ⟨S24, .i32⟩
  | .hbm, ⟨95, _⟩ => ⟨S24, .i32⟩
  | .hbm, ⟨96, _⟩ => ⟨S24, .f32⟩
  | .hbm, ⟨97, _⟩ => ⟨S_, .f32⟩
  | .hbm, ⟨98, _⟩ => ⟨S24, .f32⟩
  | .hbm, ⟨99, _⟩ => ⟨S24, .f32⟩
  | .hbm, ⟨100, _⟩ => ⟨S_, .f32⟩
  | .hbm, ⟨101, _⟩ => ⟨S24x3, .f32⟩
  | .hbm, ⟨102, _⟩ => ⟨S_, .i32⟩
  | .hbm, ⟨103, _⟩ => ⟨S24, .i32⟩
  | .hbm, ⟨104, _⟩ => ⟨S24, .i1⟩
  | .hbm, ⟨105, _⟩ => ⟨S_, .i32⟩
  | .hbm, ⟨106, _⟩ => ⟨S24, .i32⟩
  | .hbm, ⟨107, _⟩ => ⟨S24, .i32⟩
  | .hbm, ⟨108, _⟩ => ⟨S24, .i32⟩
  | .hbm, ⟨109, _⟩ => ⟨S_, .i32⟩
  | .hbm, ⟨110, _⟩ => ⟨S24, .i32⟩
  | .hbm, ⟨111, _⟩ => ⟨S24, .i1⟩
  | .hbm, ⟨112, _⟩ => ⟨S_, .i32⟩
  | .hbm, ⟨113, _⟩ => ⟨S24, .i32⟩
  | .hbm, ⟨114, _⟩ => ⟨S24, .i32⟩
  | .hbm, ⟨115, _⟩ => ⟨S24, .i32⟩
  | .hbm, ⟨116, _⟩ => ⟨S24x1, .i32⟩
  | .hbm, ⟨117, _⟩ => ⟨S24x1, .i32⟩
  | .hbm, ⟨118, _⟩ => ⟨S24x2, .i32⟩
  | .hbm, ⟨119, _⟩ => ⟨S24x3, .f32⟩
  | .hbm, ⟨120, _⟩ => ⟨S24x3, .bf16⟩
  | .hbm, ⟨121, _⟩ => ⟨S65536x3, .f32⟩
  | .hbm, ⟨122, _⟩ => ⟨S256x256x3, .f32⟩
  | .hbm, ⟨123, _⟩ => ⟨S3x256x256, .f32⟩
  | .hbm, ⟨124, _⟩ => ⟨S3x256x256, .f32⟩
  | .local _ .vmem, ⟨0, _⟩ => ⟨S1024x16, .bf16⟩
  | .local _ .vmem, ⟨1, _⟩ => ⟨S1024x16, .bf16⟩
  | .local _ .vmem, ⟨2, _⟩ => ⟨S16x1024, .bf16⟩
  | .local _ .vmem, ⟨3, _⟩ => ⟨S1024x1024, .bf16⟩
  | .local _ .vmem, ⟨4, _⟩ => ⟨S1024x24, .bf16⟩
  | .local _ .vmem, ⟨5, _⟩ => ⟨S1x1024, .f32⟩
  | .local _ .vmem, ⟨6, _⟩ => ⟨S1x1024, .f32⟩
  | .local _ .vmem, ⟨7, _⟩ => ⟨S1x24, .f32⟩
  | .local _ .vmem, ⟨8, _⟩ => ⟨S24x3, .bf16⟩
  | .local _ .vmem, ⟨9, _⟩ => ⟨S1024x3, .f32⟩
  | .local _ .vmem, ⟨10, _⟩ => ⟨S1024x3, .f32⟩
  | _, _ => ⟨S3x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_call0_v5 : Ref sig .tc := ⟨.hbm, 59, rfl⟩
abbrev main_call0_v6 : Ref sig .tc := ⟨.hbm, 60, rfl⟩
abbrev main_call0_v7 : Ref sig .tc := ⟨.hbm, 61, rfl⟩
abbrev main_call0_v8 : Ref sig .tc := ⟨.hbm, 62, rfl⟩
abbrev main_call0_c : Ref sig .tc := ⟨.hbm, 63, rfl⟩
abbrev main_call0_v9 : Ref sig .tc := ⟨.hbm, 64, rfl⟩
abbrev main_call0_v10 : Ref sig .tc := ⟨.hbm, 65, rfl⟩
abbrev main_call0_v11 : Ref sig .tc := ⟨.hbm, 66, rfl⟩
abbrev main_call0_c_0 : Ref sig .tc := ⟨.hbm, 67, rfl⟩
abbrev main_call0_v12 : Ref sig .tc := ⟨.hbm, 68, rfl⟩
abbrev main_call0_v13 : Ref sig .tc := ⟨.hbm, 69, rfl⟩
abbrev main_v36 : Ref sig .tc := ⟨.hbm, 70, rfl⟩
abbrev main_c_8 : Ref sig .tc := ⟨.hbm, 71, rfl⟩
abbrev main_call1_v0 : Ref sig .tc := ⟨.hbm, 72, rfl⟩
abbrev main_call1_c : Ref sig .tc := ⟨.hbm, 73, rfl⟩
abbrev main_call1_v1 : Ref sig .tc := ⟨.hbm, 74, rfl⟩
abbrev main_call1_c_0 : Ref sig .tc := ⟨.hbm, 75, rfl⟩
abbrev main_call1_v2 : Ref sig .tc := ⟨.hbm, 76, rfl⟩
abbrev main_call1_v3 : Ref sig .tc := ⟨.hbm, 77, rfl⟩
abbrev main_call1_v4 : Ref sig .tc := ⟨.hbm, 78, rfl⟩
abbrev main_call1_c_1 : Ref sig .tc := ⟨.hbm, 79, rfl⟩
abbrev main_call1_v5 : Ref sig .tc := ⟨.hbm, 80, rfl⟩
abbrev main_call1_v6 : Ref sig .tc := ⟨.hbm, 81, rfl⟩
abbrev main_call1_c_2 : Ref sig .tc := ⟨.hbm, 82, rfl⟩
abbrev main_call1_v7 : Ref sig .tc := ⟨.hbm, 83, rfl⟩
abbrev main_call1_v8 : Ref sig .tc := ⟨.hbm, 84, rfl⟩
abbrev main_call1_c_3 : Ref sig .tc := ⟨.hbm, 85, rfl⟩
abbrev main_call1_v9 : Ref sig .tc := ⟨.hbm, 86, rfl⟩
abbrev main_call1_v10 : Ref sig .tc := ⟨.hbm, 87, rfl⟩
abbrev main_call1_v11 : Ref sig .tc := ⟨.hbm, 88, rfl⟩
abbrev main_call1_v12 : Ref sig .tc := ⟨.hbm, 89, rfl⟩
abbrev main_call1_v13 : Ref sig .tc := ⟨.hbm, 90, rfl⟩
abbrev main_call1_v14 : Ref sig .tc := ⟨.hbm, 91, rfl⟩
abbrev main_v37 : Ref sig .tc := ⟨.hbm, 92, rfl⟩
abbrev main_c_9 : Ref sig .tc := ⟨.hbm, 93, rfl⟩
abbrev main_v38 : Ref sig .tc := ⟨.hbm, 94, rfl⟩
abbrev main_v39 : Ref sig .tc := ⟨.hbm, 95, rfl⟩
abbrev main_v40 : Ref sig .tc := ⟨.hbm, 96, rfl⟩
abbrev main_cst_10 : Ref sig .tc := ⟨.hbm, 97, rfl⟩
abbrev main_v41 : Ref sig .tc := ⟨.hbm, 98, rfl⟩
abbrev main_v42 : Ref sig .tc := ⟨.hbm, 99, rfl⟩
abbrev main_cst_11 : Ref sig .tc := ⟨.hbm, 100, rfl⟩
abbrev main_v43 : Ref sig .tc := ⟨.hbm, 101, rfl⟩
abbrev main_c_12 : Ref sig .tc := ⟨.hbm, 102, rfl⟩
abbrev main_v44 : Ref sig .tc := ⟨.hbm, 103, rfl⟩
abbrev main_v45 : Ref sig .tc := ⟨.hbm, 104, rfl⟩
abbrev main_c_13 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_c_14 : Ref sig .tc := ⟨.hbm, 109, rfl⟩
abbrev main_v49 : Ref sig .tc := ⟨.hbm, 110, rfl⟩
abbrev main_v50 : Ref sig .tc := ⟨.hbm, 111, rfl⟩
abbrev main_c_15 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x16 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x24 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x24 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S24x3 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x3 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S256x256x16_S65536x16 : S256x256x16.ShapeCasts S65536x16
  reducesTo_S16x1024_S1024_d0 : S16x1024.ReducesTo [0] S1024
  h_S_ : 0 < S_.numel
  bcast_S1024_S1x1024_1 : S1024.BroadcastsInDim S1x1024 (![1] : Fin 1 → Fin S1x1024.rank)
  bcast_S_S1x1024 : S_.BroadcastsInDim S1x1024 (![] : Fin 0 → Fin S1x1024.rank)
  reducesTo_S1024x1024_S1024_d0 : S1024x1024.ReducesTo [0] S1024
  reducesTo_S1024x24_S24_d0 : S1024x24.ReducesTo [0] S24
  bcast_S24_S1x24_1 : S24.BroadcastsInDim S1x24 (![1] : Fin 1 → Fin S1x24.rank)
  bcast_S_S1x24 : S_.BroadcastsInDim S1x24 (![] : Fin 0 → Fin S1x24.rank)
  bcast_S_S24 : S_.BroadcastsInDim S24 (![] : Fin 0 → Fin S24.rank)
  bcast_S_S24x3 : S_.BroadcastsInDim S24x3 (![] : Fin 0 → Fin S24x3.rank)
  bcast_S24_S24x1_0 : S24.BroadcastsInDim S24x1 (![0] : Fin 1 → Fin S24x1.rank)
  concatenates_S24x1_S24x1_S24x2_d1 : Shape.Concatenates [S24x1, S24x1] S24x2 1
  bitsLt_bf16_f32 : FTy.bits .bf16 < FTy.bits .f32
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  reduces_S1024x16_S1024 : S1024x16.Reduces [1] S1024
  shapeCasts_S1024_S1024x1 : S1024.ShapeCasts S1024x1
  broadcasts_S1024x1_S1024x1024 : S1024x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  natLt_1_32 : 1 < 32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  inb_S1024x24_S1024x24_0_0 : ∀ a, (![0, 0] : Fin 2 → Nat) a + S1024x24.size a ≤ S1024x24.size a
  h_S1024x24 : 0 < S1024x24.numel
  shapeCasts_S1024x24_S1024x24 : S1024x24.ShapeCasts S1024x24
  broadcasts_S1024x1_S1024x24 : S1024x1.Broadcasts S1024x24
  inb_S1x24_S1x24_0_0 : ∀ a, (![0, 0] : Fin 2 → Nat) a + S1x24.size a ≤ S1x24.size a
  h_S1x24 : 0 < S1x24.numel
  shapeCasts_S1x24_S1x24 : S1x24.ShapeCasts S1x24
  broadcasts_S1x24_S1024x24 : S1x24.Broadcasts S1024x24
  inb_S24x3_S24x3_0_0 : ∀ a, (![0, 0] : Fin 2 → Nat) a + S24x3.size a ≤ S24x3.size a
  h_S24x3 : 0 < S24x3.numel
  shapeCasts_S24x3_S24x3 : S24x3.ShapeCasts S24x3
  inb_S1024x3_S1024x3_0_0 : ∀ a, (![0, 0] : Fin 2 → Nat) a + S1024x3.size a ≤ S1024x3.size a
  h_S1024x3 : 0 < S1024x3.numel
  shapeCasts_S65536x3_S256x256x3 : S65536x3.ShapeCasts S256x256x3
  transposes_S256x256x3_S3x256x256_2_0_1 : S256x256x3.Transposes [2, 0, 1] S3x256x256
  scatter_S24x3_S24x2_S24_n_01_01_1_wf : ScatterDims.WF S24x3 S24x2 S24 [] [0, 1] [0, 1] 1
  dot_S1024x16_S16x1024_S1024x1024_1_0_0_1_n_n_wf : DotDims.WF S1024x16 S16x1024 S1024x1024 [1] [0] [0] [1] [] []
  dot_S1024x1024_S1024x1024_S1024x1024_1_0_0_1_n_n_wf : DotDims.WF S1024x1024 S1024x1024 S1024x1024 [1] [0] [0] [1] [] []
  dot_S1024x1024_S1024x24_S1024x24_1_0_0_1_n_n_wf : DotDims.WF S1024x1024 S1024x24 S1024x24 [1] [0] [0] [1] [] []
  dot_S1024x24_S24x3_S1024x3_1_0_0_1_n_n_wf : DotDims.WF S1024x24 S24x3 S1024x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x16.size a ≤ S65536x16.size a
  hwx0_0 : ∀ i : grid0.Coords, EltTy.bits .bf16 = 32 ∨ (Rect.block (s := S65536x16) S1024x16.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x1024.size a ≤ S16x1024.size a
  hwx0_1 : ∀ i : grid0.Coords, EltTy.bits .bf16 = 32 ∨ (Rect.block (s := S16x1024) S16x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x24.size a ≤ S1024x24.size a
  hwx0_3 : ∀ i : grid0.Coords, EltTy.bits .bf16 = 32 ∨ (Rect.block (s := S1024x24) S1024x24.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x24.size a ≤ S1x24.size a
  hwx0_6 : ∀ i : grid0.Coords, EltTy.bits .f32 = 32 ∨ (Rect.block (s := S1x24) S1x24.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S24x3.size a ≤ S24x3.size a
  hwx0_7 : ∀ i : grid0.Coords, EltTy.bits .bf16 = 32 ∨ (Rect.block (s := S24x3) S24x3.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x3.size a ≤ S65536x3.size a
  hwx0_8 : ∀ i : grid0.Coords, EltTy.bits .f32 = 32 ∨ (Rect.block (s := S65536x3) S1024x3.size (cc0_transform_8 i) (hinb0_8 i)).WholeWords (EltTy.packing .f32)

variable [Facts₀]

def scatter_S24x3_S24x2_S24_n_01_01_1 : ScatterDims S24x3 S24x2 S24 where
  updateWindowDims := []
  insertedWindowDims := [0, 1]
  scatterDimsToOperandDims := [0, 1]
  indexVectorDim := 1
  wf := scatter_S24x3_S24x2_S24_n_01_01_1_wf
def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x24_S1024x24_1_0_0_1_n_n : DotDims S1024x1024 S1024x24 S1024x24 where
  lhsContracting := [1]
  rhsContracting := [0]
  lhsNonContracting := [0]
  rhsNonContracting := [1]
  lhsBatch := []
  rhsBatch := []
  wf := dot_S1024x1024_S1024x24_S1024x24_1_0_0_1_n_n_wf
def dot_S1024x24_S24x3_S1024x3_1_0_0_1_n_n : DotDims S1024x24 S24x3 S1024x3 where
  lhsContracting := [1]
  rhsContracting := [0]
  lhsNonContracting := [0]
  rhsNonContracting := [1]
  lhsBatch := []
  rhsBatch := []
  wf := dot_S1024x24_S24x3_S1024x3_1_0_0_1_n_n_wf

abbrev win0_0 : Pipeline.Window sig grid0 :=
  Pipeline.Window.ofSpec (Memref.whole main_v1) S1024x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S16x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S1024x24.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v33) S1x24.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v58) S24x3.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v59) S1024x3.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S3x256x256 : Shape := ⟨3, ![3, 256, 256]⟩
abbrev S256x256x16 : Shape := ⟨3, ![256, 256, 16]⟩
abbrev S16x1024 : Shape := ⟨2, ![16, 1024]⟩
abbrev S1024 : Shape := ⟨1, ![1024]⟩
abbrev S1024x1024 : Shape := ⟨2, ![1024, 1024]⟩
abbrev S1024x24 : Shape := ⟨2, ![1024, 24]⟩
abbrev S24 : Shape := ⟨1, ![24]⟩
abbrev S65536x16 : Shape := ⟨2, ![65536, 16]⟩
abbrev S65536x1024 : Shape := ⟨2, ![65536, 1024]⟩
abbrev S_ : Shape := ⟨0, ![]⟩
abbrev S1x1024 : Shape := ⟨2, ![1, 1024]⟩
abbrev S65536x24 : Shape := ⟨2, ![65536, 24]⟩
abbrev S1x24 : Shape := ⟨2, ![1, 24]⟩
abbrev S256x256x3x8 : Shape := ⟨4, ![256, 256, 3, 8]⟩
abbrev S8 : Shape := ⟨1, ![8]⟩
abbrev S1x1x1x8 : Shape := ⟨4, ![1, 1, 1, 8]⟩
abbrev S256x256x3 : Shape := ⟨3, ![256, 256, 3]⟩

abbrev nBuf : Space → Nat
  | .hbm => 75
  | .vmem => 0
  | .smem => 0
  | _ => 0

abbrev bufTy : (tb : Table) → Fin (tcTables nBuf tb) → BufTy
  | .hbm, ⟨0, _⟩ => ⟨S3x256x256, .f32⟩
  | .hbm, ⟨1, _⟩ => ⟨S256x256x16, .i1⟩
  | .hbm, ⟨2, _⟩ => ⟨S16x1024, .i1⟩
  | .hbm, ⟨3, _⟩ => ⟨S1024, .i32⟩
  | .hbm, ⟨4, _⟩ => ⟨S1024x1024, .i1⟩
  | .hbm, ⟨5, _⟩ => ⟨S1024, .i32⟩
  | .hbm, ⟨6, _⟩ => ⟨S1024x24, .i1⟩
  | .hbm, ⟨7, _⟩ => ⟨S24, .i32⟩
  | .hbm, ⟨8, _⟩ => ⟨S65536x16, .i1⟩
  | .hbm, ⟨9, _⟩ => ⟨S65536x16, .f32⟩
  | .hbm, ⟨10, _⟩ => ⟨S16x1024, .f32⟩
  | .hbm, ⟨11, _⟩ => ⟨S65536x1024, .f32⟩
  | .hbm, ⟨12, _⟩ => ⟨S_, .f32⟩
  | .hbm, ⟨13, _⟩ => ⟨S65536x16, .f32⟩
  | .hbm, ⟨14, _⟩ => ⟨S65536x16, .f32⟩
  | .hbm, ⟨15, _⟩ => ⟨S_, .f32⟩
  | .hbm, ⟨16, _⟩ => ⟨S16x1024, .f32⟩
  | .hbm, ⟨17, _⟩ => ⟨S16x1024, .f32⟩
  | .hbm, ⟨18, _⟩ => ⟨S65536x1024, .f32⟩
  | .hbm, ⟨19, _⟩ => ⟨S65536x1024, .f32⟩
  | .hbm, ⟨20, _⟩ => ⟨S1024, .f32⟩
  | .hbm, ⟨21, _⟩ => ⟨S1x1024, .f32⟩
  | .hbm, ⟨22, _⟩ => ⟨S65536x1024, .f32⟩
  | .hbm, ⟨23, _⟩ => ⟨S65536x1024, .i1⟩
  | .hbm, ⟨24, _⟩ => ⟨S65536x1024, .f32⟩
  | .hbm, ⟨25, _⟩ => ⟨S1024x1024, .f32⟩
  | .hbm, ⟨26, _⟩ => ⟨S65536x1024, .f32⟩
  | .hbm, ⟨27, _⟩ => ⟨S_, .f32⟩
  | .hbm, ⟨28, _⟩ => ⟨S65536x1024, .f32⟩
  | .hbm, ⟨29, _⟩ => ⟨S65536x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S65536x1024, .f32⟩
  | .hbm, ⟨34, _⟩ => ⟨S65536x1024, .f32⟩
  | .hbm, ⟨35, _⟩ => ⟨S1024, .f32⟩
  | .hbm, ⟨36, _⟩ => ⟨S1x1024, .f32⟩
  | .hbm, ⟨37, _⟩ => ⟨S65536x1024, .f32⟩
  | .hbm, ⟨38, _⟩ => ⟨S65536x1024, .i1⟩
  | .hbm, ⟨39, _⟩ => ⟨S65536x1024, .f32⟩
  | .hbm, ⟨40, _⟩ => ⟨S1024x24, .f32⟩
  | .hbm, ⟨41, _⟩ => ⟨S65536x24, .f32⟩
  | .hbm, ⟨42, _⟩ => ⟨S_, .f32⟩
  | .hbm, ⟨43, _⟩ => ⟨S65536x1024, .f32⟩
  | .hbm, ⟨44, _⟩ => ⟨S65536x1024, .f32⟩
  | .hbm, ⟨45, _⟩ => ⟨S_, .f32⟩
  | .hbm, ⟨46, _⟩ => ⟨S1024x24, .f32⟩
  | .hbm, ⟨47, _⟩ => ⟨S1024x24, .f32⟩
  | .hbm, ⟨48, _⟩ => ⟨S65536x24, .f32⟩
  | .hbm, ⟨49, _⟩ => ⟨S65536x24, .f32⟩
  | .hbm, ⟨50, _⟩ => ⟨S24, .f32⟩
  | .hbm, ⟨51, _⟩ => ⟨S1x24, .f32⟩
  | .hbm, ⟨52, _⟩ => ⟨S65536x24, .f32⟩
  | .hbm, ⟨53, _⟩ => ⟨S65536x24, .i1⟩
  | .hbm, ⟨54, _⟩ => ⟨S256x256x3x8, .i1⟩
  | .hbm, ⟨55, _⟩ => ⟨S8, .i32⟩
  | .hbm, ⟨56, _⟩ => ⟨S_, .i32⟩
  | .hbm, ⟨57, _⟩ => ⟨S8, .i32⟩
  | .hbm, ⟨58, _⟩ => ⟨S8, .i32⟩
  | .hbm, ⟨59, _⟩ => ⟨S_, .i32⟩
  | .hbm, ⟨60, _⟩ => ⟨S8, .i32⟩
  | .hbm, ⟨61, _⟩ => ⟨S8, .i32⟩
  | .hbm, ⟨62, _⟩ => ⟨S8, .f32⟩
  | .hbm, ⟨63, _⟩ => ⟨S_, .f32⟩
  | .hbm, ⟨64, _⟩ => ⟨S8, .f32⟩
  | .hbm, ⟨65, _⟩ => ⟨S8, .f32⟩
  | .hbm, ⟨66, _⟩ => ⟨S8, .f32⟩
  | .hbm, ⟨67, _⟩ => ⟨S256x256x3x8, .f32⟩
  | .hbm, ⟨68, _⟩ => ⟨S1x1x1x8, .f32⟩
  | .hbm, ⟨69, _⟩ => ⟨S256x256x3x8, .f32⟩
  | .hbm, ⟨70, _⟩ => ⟨S256x256x3x8, .f32⟩
  | .hbm, ⟨71, _⟩ => ⟨S_, .f32⟩
  | .hbm, ⟨72, _⟩ => ⟨S256x256x3, .f32⟩
  | .hbm, ⟨73, _⟩ => ⟨S3x256x256, .f32⟩
  | .hbm, ⟨74, _⟩ => ⟨S3x256x256, .f32⟩
  | _, _ => ⟨S3x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_c : Ref sig .tc := ⟨.hbm, 56, rfl⟩
abbrev main_v42 : Ref sig .tc := ⟨.hbm, 57, rfl⟩
abbrev main_v43 : Ref sig .tc := ⟨.hbm, 58, rfl⟩
abbrev main_c_5 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_6 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_7 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩

abbrev nD : Nat := 1
abbrev τ : Topo := Topo.v7x

variable {F : FTy → Type} [FloatOps F]

class Facts₀ : Prop where
  shapeCasts_S256x256x16_S65536x16 : S256x256x16.ShapeCasts S65536x16
  bcast_S_S65536x16 : S_.BroadcastsInDim S65536x16 (![] : Fin 0 → Fin S65536x16.rank)
  bcast_S_S16x1024 : S_.BroadcastsInDim S16x1024 (![] : Fin 0 → Fin S16x1024.rank)
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  bcast_S_S65536x1024 : S_.BroadcastsInDim S65536x1024 (![] : Fin 0 → Fin S65536x1024.rank)
  bcast_S_S1024x1024 : S_.BroadcastsInDim S1024x1024 (![] : Fin 0 → Fin S1024x1024.rank)
  bcast_S_S1024x24 : S_.BroadcastsInDim S1024x24 (![] : Fin 0 → Fin S1024x24.rank)
  bcast_S24_S1x24_1 : S24.BroadcastsInDim S1x24 (![1] : Fin 1 → Fin S1x24.rank)
  bcast_S1x24_S65536x24_0_1 : S1x24.BroadcastsInDim S65536x24 (![0, 1] : Fin 2 → Fin S65536x24.rank)
  shapeCasts_S65536x24_S256x256x3x8 : S65536x24.ShapeCasts S256x256x3x8
  bcast_S_S8 : S_.BroadcastsInDim S8 (![] : Fin 0 → Fin S8.rank)
  bcast_S8_S1x1x1x8_3 : S8.BroadcastsInDim S1x1x1x8 (![3] : Fin 1 → Fin S1x1x1x8.rank)
  bcast_S1x1x1x8_S256x256x3x8_0_1_2_3 : S1x1x1x8.BroadcastsInDim S256x256x3x8 (![0, 1, 2, 3] : Fin 4 → Fin S256x256x3x8.rank)
  reducesTo_S256x256x3x8_S256x256x3_d3 : S256x256x3x8.ReducesTo [3] S256x256x3
  h_S_ : 0 < S_.numel
  transposes_S256x256x3_S3x256x256_2_0_1 : S256x256x3.Transposes [2, 0, 1] S3x256x256
  dot_S65536x16_S16x1024_S65536x1024_1_0_0_1_n_n_wf : DotDims.WF S65536x16 S16x1024 S65536x1024 [1] [0] [0] [1] [] []
  dot_S65536x1024_S1024x1024_S65536x1024_1_0_0_1_n_n_wf : DotDims.WF S65536x1024 S1024x1024 S65536x1024 [1] [0] [0] [1] [] []
  dot_S65536x1024_S1024x24_S65536x24_1_0_0_1_n_n_wf : DotDims.WF S65536x1024 S1024x24 S65536x24 [1] [0] [0] [1] [] []

variable [Facts₀]

def dot_S65536x16_S16x1024_S65536x1024_1_0_0_1_n_n : DotDims S65536x16 S16x1024 S65536x1024 where
  lhsContracting := [1]
  rhsContracting := [0]
  lhsNonContracting := [0]
  rhsNonContracting := [1]
  lhsBatch := []
  rhsBatch := []
  wf := dot_S65536x16_S16x1024_S65536x1024_1_0_0_1_n_n_wf
def dot_S65536x1024_S1024x1024_S65536x1024_1_0_0_1_n_n : DotDims S65536x1024 S1024x1024 S65536x1024 where
  lhsContracting := [1]
  rhsContracting := [0]
  lhsNonContracting := [0]
  rhsNonContracting := [1]
  lhsBatch := []
  rhsBatch := []
  wf := dot_S65536x1024_S1024x1024_S65536x1024_1_0_0_1_n_n_wf
def dot_S65536x1024_S1024x24_S65536x24_1_0_0_1_n_n : DotDims S65536x1024 S1024x24 S65536x24 where
  lhsContracting := [1]
  rhsContracting := [0]
  lhsNonContracting := [0]
  rhsNonContracting := [1]
  lhsBatch := []
  rhsBatch := []
  wf := dot_S65536x1024_S1024x24_S65536x24_1_0_0_1_n_n_wf

class Facts : Prop extends Facts₀ where

variable [Facts]
-- ==== Proof.Spec.lean ====
/-
  The function both programs compute, written once, index by index, on the extended reals.

  A layer takes a row `x` of `n` numbers, an `n × d` matrix of bits `m` and `d` integer thresholds `t`, and answers for
  each column `j` the bit of
      ∑ₖ xₖ·mₖⱼ + ∑ₖ (1 − xₖ)·(1 − mₖⱼ)  >  tⱼ                                     (`rtest`)
  — for bits `x` the number of positions where the row and the column agree, against the threshold. Three layers
  (16 → 1024 → 1024 → 24) run on each of the 65536 rows of the position code; the last layer's 24 bits are read as
  three bytes, most significant bit first: entry `(r, c)` of the image is ∑_{q<8} bit(8c+q)·2^(7−q).

  The same test in the other arrangement (`ktest` against `adj`): since
      ∑ₖ [xₖ mₖ + (1 − xₖ)(1 − mₖ)] = 2 ∑ₖ xₖ mₖ + n − ∑ₖ xₖ − ∑ₖ mₖ
  for any real numbers, the test is  ∑ₖ xₖ mₖⱼ − (∑ₖ xₖ)/2 > (tⱼ + ∑ₖ mₖⱼ − n)/2  (`ktest_adj`). The identity is one of
  real numbers; on the extended reals it needs every entry finite, which bits and integers are.
-/
import Idealize.ShloMosaic.PureOps.Ideal
import Idealize.ShloMosaic.PureOps.Ideal.Laws
import Idealize.ShloMosaic.Lib.ValueIdx

noncomputable section

namespace Cert.Xnor

open Idealize.ShloMosaic Idealize.ShloMosaic.ValueIdx

/-- A bit as the number 0 or 1. -/
def ind (b : BitVec 1) : EReal := ((b.toNat : ℝ) : EReal)
/-- A signed 32-bit integer as a number. -/
def thr (t : BitVec 32) : EReal := ((t.toInt : ℝ) : EReal)
/-- The literals 1 and 1/2 as the programs spell them. -/
def one : EReal := Ideal.ofBits .f32 0x3F800000#32
def half : EReal := Ideal.ofBits .f32 0x3F000000#32

/-- The agreement count of a row and a column against a threshold. -/
def rtest {n : ℕ} (x mcol : Fin n → EReal) (t : EReal) : BitVec 1 :=
  Ideal.cmp .ogt ((∑ k, x k * mcol k) + ∑ k, (one - x k) * (one - mcol k)) t
/-- The same test with the row's half sum moved to the left and everything else into the threshold. -/
def ktest {n : ℕ} (x mcol : Fin n → EReal) (a : EReal) : BitVec 1 :=
  Ideal.cmp .ogt ((∑ k, x k * mcol k) - (∑ k, x k) * half) a
/-- The threshold the second form compares against: (t + ∑ₖ mₖ − n)/2, the column sum started from the zero word. -/
def adj {n : ℕ} (nlit : EReal) (mcol : Fin n → EReal) (t : EReal) : EReal :=
  ((t + (Ideal.ofBits .f32 0x00000000#32 + ∑ k, mcol k)) - nlit) * half
/-- The weight of bit `q` of a byte, most significant first: 2^(7 − q), as a power of the literal 2. -/
def W (q : Fin 8) : EReal := Ideal.pow (Ideal.ofBits .f32 0x40000000#32) (((7 - (q.val : ℤ) : ℤ) : ℝ) : EReal)

/-- The integer and boolean arguments of both programs. -/
structure Args where
  a1 : IVec ⟨3, ![256, 256, 16]⟩ 1
  a2 : IVec ⟨2, ![16, 1024]⟩ 1
  a3 : IVec ⟨1, ![1024]⟩ 32
  a4 : IVec ⟨2, ![1024, 1024]⟩ 1
  a5 : IVec ⟨1, ![1024]⟩ 32
  a6 : IVec ⟨2, ![1024, 24]⟩ 1
  a7 : IVec ⟨1, ![24]⟩ 32

/-- Row `r = 256·h + w` of the position code, entry `k`. -/
def X0 (A : Args) (r : Fin 65536) (k : Fin 16) : EReal :=
  ind (A.a1 (ix3 (⟨r.val / 256, by have := r.isLt; omega⟩ : Fin 256) (⟨r.val % 256, by omega⟩ : Fin 256) k))
/-- The three layers' outputs on row `r`, as numbers 0 / 1. -/
def H1 (A : Args) (r : Fin 65536) (j : Fin 1024) : EReal :=
  ind (rtest (X0 A r) (fun k => ind (A.a2 (ix2 k j))) (thr (A.a3 (ix1 j))))
def H2 (A : Args) (r : Fin 65536) (j : Fin 1024) : EReal :=
  ind (rtest (H1 A r) (fun k => ind (A.a4 (ix2 k j))) (thr (A.a5 (ix1 j))))
def H3 (A : Args) (r : Fin 65536) (j : Fin 24) : EReal :=
  ind (rtest (H2 A r) (fun k => ind (A.a6 (ix2 k j))) (thr (A.a7 (ix1 j))))
/-- Byte `c` of row `r`: its eight bits weighted most significant first. -/
def Img (A : Args) (r : Fin 65536) (c : Fin 3) : EReal :=
  ∑ q : Fin 8, H3 A r (⟨8 * c.val + q.val, by have := c.isLt; have := q.isLt; omega⟩ : Fin 24) * W q
/-- The image as the `[65536, 3]` array the kernel's region leaves. -/
def Flat (A : Args) : FVec Ideal ⟨2, ![65536, 3]⟩ .f32 := fun i => Img A ⟨(i 0).val, (i 0).isLt⟩ ⟨(i 1).val, (i 1).isLt⟩
/-- The first result, `[3, 256, 256]`: channel, row, column. -/
def Out (A : Args) : FVec Ideal ⟨3, ![3, 256, 256]⟩ .f32 := fun i =>
  Img A (⟨(i 1).val * 256 + (i 2).val, by have h1 : (i 1).val < 256 := (i 1).isLt; have h2 : (i 2).val < 256 := (i 2).isLt; omega⟩ : Fin 65536)
    ⟨(i 0).val, (i 0).isLt⟩
/-- The second result: the image minus the first argument. -/
def Err (A : Args) (a0 : FVec Ideal ⟨3, ![3, 256, 256]⟩ .f32) : FVec Ideal ⟨3, ![3, 256, 256]⟩ .f32 := subf (Out A) a0

end Cert.Xnor

end
-- ==== Proof.RefSpec.lean ====
/-
  The reference program computes the specification's image.

  Read one operation at a time, the reference runs three layers on each of the 65536 rows of the position code. A layer
  forms, for row `r` and column `j`, the sum over `k` of  xₖ·mₖⱼ  plus the sum over `k` of  (1 − xₖ)·(1 − mₖⱼ),  with `x`
  the previous layer's bits read as the numbers 0 / 1 (for the first layer: the position code, whose flat row `r` is
  entry `(r / 256, r % 256)` of the `256 × 256` grid) and `m` the mask's bits read the same way, and compares it with
  the threshold `tⱼ` read as a signed integer: exactly `rtest`. So the three layers are `H1`, `H2`, `H3` (`layer1`,
  `layer2`, `layer3`, each from the one before by comparing the two sums term by term).

  The last layer's `65536 × 24` bits are regrouped as `256 × 256 × 3 × 8`: entry `(h, w, c, q)` is row `256·h + w`, column
  `8·c + q`, since `((256h + w)·3 + c)·8 + q = 24·(256h + w) + (8c + q)` with `8c + q < 24`. Each bit is multiplied by the
  literal 2 raised to the 32-bit word `7 + (−1)·q` read as a signed integer, which is `7 − q` for `q < 8` (`expo`), that is
  by `W q` (`weight`); the eight products are summed starting from the zero word, which is the number 0 (`decode`). The
  transposition to `3 × 256 × 256` reads entry `(c, h, w)` at `(h, w, c)`: the specification's `Out` (`out_eq`), and the
  second result subtracts the first argument from it (`ref_err`).
-/
import proofs.«165525_j41077067219414_1_alg».proof.Proof.Spec
import proofs.«165525_j41077067219414_1_alg».proof.Proof.RefReadP

noncomputable section

namespace Cert.Xnor.Ref

open Idealize.ShloMosaic Idealize.ShloMosaic.ValueIdx Cert.ReferenceIdeal Cert.ReferenceIdeal.ReadP

/-- The first layer's left operand: row `r` of the position code, entry `k`, as a number. -/
theorem v1_eq (A : Args) (r : Fin 65536) (k : Fin 16) :
    val_main_v1 (F := Ideal) A.a1 (ix2 r k) = X0 A r k := by
  show ind (val_main_v0 (F := Ideal) A.a1 (ix2 r k)) = ind (A.a1 _)
  rw [val_main_v0_apply]
  refine congrArg (fun i => ind (A.a1 i)) ?_
  funext a
  match a with
  | ⟨0, _⟩ => exact Fin.ext (by show (r.val * 16 + k.val) / 4096 = r.val / 256; have := k.isLt; omega)
  | ⟨1, _⟩ => exact Fin.ext (by show (r.val * 16 + k.val) / 16 % 256 = r.val % 256; have := k.isLt; omega)
  | ⟨2, _⟩ => exact Fin.ext (by show (r.val * 16 + k.val) % 16 = k.val; have := k.isLt; omega)

/-- The first layer of the reference is the first layer of the specification. -/
theorem layer1 (A : Args) (r : Fin 65536) (j : Fin 1024) :
    val_main_v14 (F := Ideal) A.a1 A.a2 A.a3 (ix2 r j) = H1 A r j := by
  have hL3 : ∀ k : Fin 16, lidx_main_v3 (ix2 r j) k = ix2 r k := fun k => by
    funext a; match a with | ⟨0, _⟩ => rfl | ⟨1, _⟩ => rfl
  have hR3 : ∀ k : Fin 16, ridx_main_v3 (ix2 r j) k = ix2 k j := fun k => by
    funext a; match a with | ⟨0, _⟩ => rfl | ⟨1, _⟩ => rfl
  have hL8 : ∀ k : Fin 16, lidx_main_v8 (ix2 r j) k = ix2 r k := fun k => by
    funext a; match a with | ⟨0, _⟩ => rfl | ⟨1, _⟩ => rfl
  have hR8 : ∀ k : Fin 16, ridx_main_v8 (ix2 r j) k = ix2 k j := fun k => by
    funext a; match a with | ⟨0, _⟩ => rfl | ⟨1, _⟩ => rfl
  have h3 : val_main_v3 (F := Ideal) A.a1 A.a2 (ix2 r j) = ∑ k, X0 A r k * ind (A.a2 (ix2 k j)) := by
    rw [val_main_v3_apply]
    refine Finset.sum_congr rfl fun k _ => ?_
    rw [hL3 k, hR3 k, v1_eq]; rfl
  have h8 : val_main_v8 (F := Ideal) A.a1 A.a2 (ix2 r j)
      = ∑ k, (one - X0 A r k) * (one - ind (A.a2 (ix2 k j))) := by
    rw [val_main_v8_apply]
    refine Finset.sum_congr rfl fun k _ => ?_
    rw [hL8 k, hR8 k]
    show (val_main_v4 (F := Ideal) (ix2 r k) - val_main_v1 (F := Ideal) A.a1 (ix2 r k))
      * (val_main_v6 (F := Ideal) (ix2 k j) - val_main_v2 (F := Ideal) A.a2 (ix2 k j)) = _
    rw [val_main_v4_apply, val_main_v6_apply, v1_eq]; rfl
  have h12 : val_main_v12 (F := Ideal) A.a3 (ix2 r j) = thr (A.a3 (ix1 j)) := by
    rw [val_main_v12_apply, val_main_v11_apply]
    refine congrArg (fun i => thr (A.a3 i)) ?_
    funext a; match a with | ⟨0, _⟩ => rfl
  show ind (Ideal.cmp .ogt (val_main_v3 (F := Ideal) A.a1 A.a2 (ix2 r j) + val_main_v8 (F := Ideal) A.a1 A.a2 (ix2 r j))
    (val_main_v12 (F := Ideal) A.a3 (ix2 r j))) = _
  rw [h3, h8, h12]; rfl

/-- The second layer of the reference is the second layer of the specification. -/
theorem layer2 (A : Args) (r : Fin 65536) (j : Fin 1024) :
    val_main_v27 (F := Ideal) A.a1 A.a2 A.a3 A.a4 A.a5 (ix2 r j) = H2 A r j := by
  have hL16 : ∀ k : Fin 1024, lidx_main_v16 (ix2 r j) k = ix2 r k := fun k => by
    funext a; match a with | ⟨0, _⟩ => rfl | ⟨1, _⟩ => rfl
  have hR16 : ∀ k : Fin 1024, ridx_main_v16 (ix2 r j) k = ix2 k j := fun k => by
    funext a; match a with | ⟨0, _⟩ => rfl | ⟨1, _⟩ => rfl
  have hL21 : ∀ k : Fin 1024, lidx_main_v21 (ix2 r j) k = ix2 r k := fun k => by
    funext a; match a with | ⟨0, _⟩ => rfl | ⟨1, _⟩ => rfl
  have hR21 : ∀ k : Fin 1024, ridx_main_v21 (ix2 r j) k = ix2 k j := fun k => by
    funext a; match a with | ⟨0, _⟩ => rfl | ⟨1, _⟩ => rfl
  have h16 : val_main_v16 (F := Ideal) A.a1 A.a2 A.a3 A.a4 (ix2 r j) = ∑ k, H1 A r k * ind (A.a4 (ix2 k j)) := by
    rw [val_main_v16_apply]
    refine Finset.sum_congr rfl fun k _ => ?_
    rw [hL16 k, hR16 k, layer1]; rfl
  have h21 : val_main_v21 (F := Ideal) A.a1 A.a2 A.a3 A.a4 (ix2 r j)
      = ∑ k, (one - H1 A r k) * (one - ind (A.a4 (ix2 k j))) := by
    rw [val_main_v21_apply]
    refine Finset.sum_congr rfl fun k _ => ?_
    rw [hL21 k, hR21 k]
    show (val_main_v17 (F := Ideal) (ix2 r k) - val_main_v14 (F := Ideal) A.a1 A.a2 A.a3 (ix2 r k))
      * (val_main_v19 (F := Ideal) (ix2 k j) - val_main_v15 (F := Ideal) A.a4 (ix2 k j)) = _
    rw [val_main_v17_apply, val_main_v19_apply, layer1]; rfl
  have h25 : val_main_v25 (F := Ideal) A.a5 (ix2 r j) = thr (A.a5 (ix1 j)) := by
    rw [val_main_v25_apply, val_main_v24_apply]
    refine congrArg (fun i => thr (A.a5 i)) ?_
    funext a; match a with | ⟨0, _⟩ => rfl
  rw [val_main_v27_apply, val_main_v26_apply, val_main_v22_apply, h16, h21, h25]
  rfl

/-- The third layer's bit, before it is read as a number. -/
theorem layer3 (A : Args) (r : Fin 65536) (j : Fin 24) :
    ind (val_main_v39 (F := Ideal) A.a1 A.a2 A.a3 A.a4 A.a5 A.a6 A.a7 (ix2 r j)) = H3 A r j := by
  have hL29 : ∀ k : Fin 1024, lidx_main_v29 (ix2 r j) k = ix2 r k := fun k => by
    funext a; match a with | ⟨0, _⟩ => rfl | ⟨1, _⟩ => rfl
  have hR29 : ∀ k : Fin 1024, ridx_main_v29 (ix2 r j) k = ix2 k j := fun k => by
    funext a; match a with | ⟨0, _⟩ => rfl | ⟨1, _⟩ => rfl
  have hL34 : ∀ k : Fin 1024, lidx_main_v34 (ix2 r j) k = ix2 r k := fun k => by
    funext a; match a with | ⟨0, _⟩ => rfl | ⟨1, _⟩ => rfl
  have hR34 : ∀ k : Fin 1024, ridx_main_v34 (ix2 r j) k = ix2 k j := fun k => by
    funext a; match a with | ⟨0, _⟩ => rfl | ⟨1, _⟩ => rfl
  have h29 : val_main_v29 (F := Ideal) A.a1 A.a2 A.a3 A.a4 A.a5 A.a6 (ix2 r j) = ∑ k, H2 A r k * ind (A.a6 (ix2 k j)) := by
    rw [val_main_v29_apply]
    refine Finset.sum_congr rfl fun k _ => ?_
    rw [hL29 k, hR29 k, layer2]; rfl
  have h34 : val_main_v34 (F := Ideal) A.a1 A.a2 A.a3 A.a4 A.a5 A.a6 (ix2 r j)
      = ∑ k, (one - H2 A r k) * (one - ind (A.a6 (ix2 k j))) := by
    rw [val_main_v34_apply]
    refine Finset.sum_congr rfl fun k _ => ?_
    rw [hL34 k, hR34 k]
    show (val_main_v30 (F := Ideal) (ix2 r k) - val_main_v27 (F := Ideal) A.a1 A.a2 A.a3 A.a4 A.a5 (ix2 r k))
      * (val_main_v32 (F := Ideal) (ix2 k j) - val_main_v28 (F := Ideal) A.a6 (ix2 k j)) = _
    rw [val_main_v30_apply, val_main_v32_apply, layer2]; rfl
  have h38 : val_main_v38 (F := Ideal) A.a7 (ix2 r j) = thr (A.a7 (ix1 j)) := by
    rw [val_main_v38_apply, val_main_v37_apply]
    refine congrArg (fun i => thr (A.a7 i)) ?_
    funext a; match a with | ⟨0, _⟩ => rfl
  rw [val_main_v39_apply, val_main_v35_apply, h29, h34, h38]
  rfl

/-- The exponent of bit `q`: the 32-bit word `7 + (−1)·q` read as a signed integer is `7 − q`. -/
theorem expo (q : Fin 8) :
    (IntOp.addi (7#32) (IntOp.muli (4294967295#32) (BitVec.ofNat 32 q.val))).toInt = 7 - (q.val : ℤ) := by
  revert q; decide

/-- The weight the reference multiplies bit `q` by is `W q`. -/
theorem weight (h w : Fin 256) (c : Fin 3) (q : Fin 8) :
    val_main_v52 (F := Ideal) (ix4 h w c q) = W q := by
  rw [val_main_v52_apply, val_main_v51_apply]
  have hi : idx_main_v51 (idx_main_v52 (ix4 h w c q)) = ix1 q := by
    funext a; match a with | ⟨0, _⟩ => rfl
  rw [hi]
  show Ideal.pow (val_main_v48 (F := Ideal) (ix1 q)) (((IntOp.addi (val_main_v44 (F := Ideal) (ix1 q))
    (IntOp.muli (val_main_v42 (F := Ideal) (ix1 q)) (BitVec.ofNat 32 q.val))).toInt : ℝ) : EReal) = _
  rw [val_main_v48_apply, val_main_v44_apply, val_main_v42_apply]
  show Ideal.pow (Ideal.ofBits .f32 0x40000000#32)
    (((IntOp.addi (7#32) (IntOp.muli (4294967295#32) (BitVec.ofNat 32 q.val))).toInt : ℝ) : EReal) = _
  rw [expo q]; rfl

/-- One byte of the reference's image: the eight weighted bits of the third layer, summed from zero. -/
theorem decode (A : Args) (h w : Fin 256) (c : Fin 3) :
    val_main_v54 (F := Ideal) A.a1 A.a2 A.a3 A.a4 A.a5 A.a6 A.a7 (ix3 h w c)
      = Img A (⟨h.val * 256 + w.val, by have := h.isLt; have := w.isLt; omega⟩ : Fin 65536) c := by
  rw [val_main_v54_apply]
  show Ideal.ofBits .f32 0x00000000#32 + _ = _
  rw [Ideal.ofBits_zero_f32, zero_add]
  unfold Img
  refine Finset.sum_congr rfl fun q _ => ?_
  have hi : idx_main_v54 (ix3 h w c) q = ix4 h w c q := by
    funext a; match a with | ⟨0, _⟩ => rfl | ⟨1, _⟩ => rfl | ⟨2, _⟩ => rfl | ⟨3, _⟩ => rfl
  rw [hi]
  show ind (val_main_v40 (F := Ideal) A.a1 A.a2 A.a3 A.a4 A.a5 A.a6 A.a7 (ix4 h w c q)) * val_main_v52 (F := Ideal) (ix4 h w c q) = _
  rw [val_main_v40_apply, weight]
  have hj : idx_main_v40 (ix4 h w c q)
      = ix2 (⟨h.val * 256 + w.val, by have := h.isLt; have := w.isLt; omega⟩ : Fin 65536)
          (⟨8 * c.val + q.val, by have := c.isLt; have := q.isLt; omega⟩ : Fin 24) := by
    funext a
    match a with
    | ⟨0, _⟩ => exact Fin.ext (by
        show (((h.val * 256 + w.val) * 3 + c.val) * 8 + q.val) / 24 = h.val * 256 + w.val
        have := c.isLt; have := q.isLt; omega)
    | ⟨1, _⟩ => exact Fin.ext (by
        show (((h.val * 256 + w.val) * 3 + c.val) * 8 + q.val) % 24 = 8 * c.val + q.val
        have := c.isLt; have := q.isLt; omega)
  rw [hj, layer3]

/-- The reference's first result is the specification's image. -/
theorem out_eq (A : Args) :
    val_main_v55 (F := Ideal) A.a1 A.a2 A.a3 A.a4 A.a5 A.a6 A.a7 = Out A := by
  funext i
  obtain ⟨c, h, w, rfl⟩ : ∃ (c : Fin 3) (h w : Fin 256), i = ix3 c h w := ⟨i 0, i 1, i 2, eq_ix3 i⟩
  rw [val_main_v55_apply]
  have hi : idx_main_v55 (ix3 c h w) = ix3 h w c := by
    funext a; match a with | ⟨0, _⟩ => rfl | ⟨1, _⟩ => rfl | ⟨2, _⟩ => rfl
  rw [hi, decode]; rfl

/-- The reference's first result, as a function of its seven integer and boolean arguments, is `Out`. -/
theorem ref_out (x1 : (⟨S256x256x16, .i1⟩ : BufTy).Contents (Elt Ideal)) (x2 : (⟨S16x1024, .i1⟩ : BufTy).Contents (Elt Ideal))
    (x3 : (⟨S1024, .i32⟩ : BufTy).Contents (Elt Ideal)) (x4 : (⟨S1024x1024, .i1⟩ : BufTy).Contents (Elt Ideal))
    (x5 : (⟨S1024, .i32⟩ : BufTy).Contents (Elt Ideal)) (x6 : (⟨S1024x24, .i1⟩ : BufTy).Contents (Elt Ideal))
    (x7 : (⟨S24, .i32⟩ : BufTy).Contents (Elt Ideal)) :
    val_main_v55 (F := Ideal) x1 x2 x3 x4 x5 x6 x7 = Out ⟨x1, x2, x3, x4, x5, x6, x7⟩ :=
  out_eq ⟨x1, x2, x3, x4, x5, x6, x7⟩

/-- The reference's second result is `Err`: the first result minus the image argument. -/
theorem ref_err (x0 : (⟨S3x256x256, .f32⟩ : BufTy).Contents (Elt Ideal))
    (x1 : (⟨S256x256x16, .i1⟩ : BufTy).Contents (Elt Ideal)) (x2 : (⟨S16x1024, .i1⟩ : BufTy).Contents (Elt Ideal))
    (x3 : (⟨S1024, .i32⟩ : BufTy).Contents (Elt Ideal)) (x4 : (⟨S1024x1024, .i1⟩ : BufTy).Contents (Elt Ideal))
    (x5 : (⟨S1024, .i32⟩ : BufTy).Contents (Elt Ideal)) (x6 : (⟨S1024x24, .i1⟩ : BufTy).Contents (Elt Ideal))
    (x7 : (⟨S24, .i32⟩ : BufTy).Contents (Elt Ideal)) :
    val_main_v56 (F := Ideal) x0 x1 x2 x3 x4 x5 x6 x7 = Err ⟨x1, x2, x3, x4, x5, x6, x7⟩ x0 := by
  show subf (val_main_v55 (F := Ideal) x1 x2 x3 x4 x5 x6 x7) x0 = subf (Out ⟨x1, x2, x3, x4, x5, x6, x7⟩) x0
  rw [ref_out]

end Cert.Xnor.Ref

end
-- ==== Proof.LibERealSum.lean ====
/-
  Finite sums of real numbers inside the extended reals.

  `coe_sum`: the coercion `ℝ → EReal` commutes with a finite sum (Mathlib states it for `+` and for `*`, not for `∑`).
  `lowrank_swap`: for real `s`, `u : ι → ℝ`, `B : ι → κ → ℝ`, `a : κ → ℝ` over finite index types,

      ∑ᵣ (s · ∑ₙ uₙ · Bₙᵣ) · aᵣ  =  ∑ₙ uₙ · (s · ∑ᵣ aᵣ · Bₙᵣ)        (as extended reals)

  — a vector pushed through a rank-κ factorization from either end. It is an identity of REAL numbers (distributivity and an
  exchange of two finite sums); on the extended reals it fails at the infinities, which is why it is stated over
  coercions.
-/
import Mathlib.Data.EReal.Operations
import Mathlib.Algebra.BigOperators.Ring.Finset
import Mathlib.Algebra.BigOperators.Group.Finset.Sigma
import Mathlib.Tactic.Ring

namespace Cert.Lib.ERealSum

/-- The coercion of a finite real sum is the sum of the coercions. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- `∑ᵣ (s · ∑ₙ uₙ·Bₙᵣ) · aᵣ = ∑ₙ uₙ · (s · ∑ᵣ aᵣ·Bₙᵣ)` on real numbers, read in the extended reals: both are
    `s · ∑ₙ ∑ᵣ uₙ·Bₙᵣ·aᵣ`, by distributivity and the exchange of the two finite sums. -/
theorem lowrank_swap {ι κ : Type*} [Fintype ι] [Fintype κ] (s : ℝ) (u : ι → ℝ) (Bm : ι → κ → ℝ) (a : κ → ℝ) :
    ∑ r, ((s : EReal) * ∑ n, (u n : EReal) * (Bm n r : EReal)) * (a r : EReal)
      = ∑ n, (u n : EReal) * ((s : EReal) * ∑ r, (a r : EReal) * (Bm n r : EReal)) := by
  simp only [← EReal.coe_mul, ← coe_sum]
  refine congrArg _ ?_
  simp only [Finset.mul_sum, Finset.sum_mul]
  rw [Finset.sum_comm]
  exact Finset.sum_congr rfl fun n _ => Finset.sum_congr rfl fun r _ => by ring

end Cert.Lib.ERealSum
-- ==== Proof.Laws.lean ====
/-
  The algebra that joins the two arrangements of the computation.

  * The literals the programs spell: 1, 1/2, 16 and 1024 as real numbers.
  * `ktest_adj`: for real rows `x`, real columns `m` and a real threshold `t`,
        ∑ₖ xₖ mₖ − (∑ₖ xₖ)/2 > (t + ∑ₖ mₖ − n)/2   ⟺   ∑ₖ xₖ mₖ + ∑ₖ (1 − xₖ)(1 − mₖ) > t,
    because ∑ₖ (1 − xₖ)(1 − mₖ) = n − ∑ₖ xₖ − ∑ₖ mₖ + ∑ₖ xₖ mₖ. Both sides are comparisons of real numbers carried into
    the extended reals, so the two tests give the same bit.
  * `decode`: a sum over 24 bit positions against weights that vanish outside byte `c` is the sum over that byte's
    eight positions.
  * A bit widened to 32 bits and read as a signed integer is the bit's own value.
-/
import proofs.«165525_j41077067219414_1_alg».proof.Proof.Spec
import proofs.«165525_j41077067219414_1_alg».proof.Proof.LibERealSum
import Mathlib.Tactic.Linarith
import Mathlib.Tactic.Ring
import Mathlib.Tactic.NormNum

noncomputable section

namespace Cert.Xnor

open Idealize.ShloMosaic Cert.Lib.ERealSum

/-! ## Literals -/

theorem one_eq : one = ((1 : ℝ) : EReal) := by
  unfold one; simp [Ideal.ofBits, Ideal.ieee, -EReal.coe_mul]; norm_num
theorem half_eq : half = ((1 / 2 : ℝ) : EReal) := by
  unfold half; simp [Ideal.ofBits, Ideal.ieee, -EReal.coe_mul]; norm_num
theorem ofBits_16 : Ideal.ofBits .f32 0x41800000#32 = ((16 : ℝ) : EReal) := by
  simp [Ideal.ofBits, Ideal.ieee, -EReal.coe_mul]; norm_num
theorem ofBits_1024 : Ideal.ofBits .f32 0x44800000#32 = ((1024 : ℝ) : EReal) := by
  simp [Ideal.ofBits, Ideal.ieee, -EReal.coe_mul]; norm_num

/-! ## A bit as a number -/

theorem ind_eq (b : BitVec 1) : ind b = ((b.toNat : ℝ) : EReal) := rfl
theorem thr_eq (t : BitVec 32) : thr t = ((t.toInt : ℝ) : EReal) := rfl

/-- A bit zero-extended to 32 bits and read signed is the bit. -/
theorem toInt_setWidth_bit (b : BitVec 1) : (((b.setWidth 32).toInt : ℤ) : ℝ) = ((b.toNat : ℕ) : ℝ) := by
  have h : ∀ b : BitVec 1, (b.setWidth 32).toInt = (b.toNat : ℤ) := by decide
  rw [h b]; simp

/-! ## The two forms of the threshold test -/

theorem sum_coe_mul {n : ℕ} (xr mr : Fin n → ℝ) :
    (∑ k, ((xr k : ℝ) : EReal) * ((mr k : ℝ) : EReal)) = ((∑ k, xr k * mr k : ℝ) : EReal) := by
  rw [coe_sum]; exact Finset.sum_congr rfl fun k _ => (EReal.coe_mul _ _).symm

theorem sum_coe {n : ℕ} (xr : Fin n → ℝ) : (∑ k, ((xr k : ℝ) : EReal)) = ((∑ k, xr k : ℝ) : EReal) := (coe_sum _ _).symm

theorem sum_compl {n : ℕ} (xr mr : Fin n → ℝ) :
    ∑ k, (1 - xr k) * (1 - mr k) = (n : ℝ) - ∑ k, xr k - ∑ k, mr k + ∑ k, xr k * mr k := by
  have h : ∀ k, (1 - xr k) * (1 - mr k) = 1 - xr k - mr k + xr k * mr k := fun k => by ring
  simp only [h, Finset.sum_add_distrib, Finset.sum_sub_distrib, Finset.sum_const, Finset.card_univ, Fintype.card_fin,
    nsmul_eq_mul, mul_one]

theorem cmp_ogt_coe (a b : ℝ) : Ideal.cmp .ogt ((a : ℝ) : EReal) ((b : ℝ) : EReal) = BitVec.ofBool (decide (b < a)) := by
  unfold Ideal.cmp
  simp only [EReal.coe_lt_coe_iff]

/-- The reference's test on real-valued rows and columns, as a comparison of real numbers. -/
theorem rtest_coe {n : ℕ} (xr mr : Fin n → ℝ) (tr : ℝ) :
    rtest (fun k => ((xr k : ℝ) : EReal)) (fun k => ((mr k : ℝ) : EReal)) ((tr : ℝ) : EReal)
      = BitVec.ofBool (decide (tr < ∑ k, xr k * mr k + ∑ k, (1 - xr k) * (1 - mr k))) := by
  unfold rtest
  have h2 : (∑ k, (one - ((xr k : ℝ) : EReal)) * (one - ((mr k : ℝ) : EReal)))
      = ((∑ k, (1 - xr k) * (1 - mr k) : ℝ) : EReal) := by
    rw [coe_sum]; refine Finset.sum_congr rfl fun k _ => ?_
    rw [one_eq, ← EReal.coe_sub, ← EReal.coe_sub, ← EReal.coe_mul]
  rw [sum_coe_mul, h2, ← EReal.coe_add, cmp_ogt_coe]

/-- The kernel's test against the adjusted threshold, on the same data, gives the same bit. -/
theorem ktest_adj {n : ℕ} (xr mr : Fin n → ℝ) (tr : ℝ) (nlit : EReal) (hn : nlit = ((n : ℝ) : EReal)) :
    ktest (fun k => ((xr k : ℝ) : EReal)) (fun k => ((mr k : ℝ) : EReal))
        (adj nlit (fun k => ((mr k : ℝ) : EReal)) ((tr : ℝ) : EReal))
      = rtest (fun k => ((xr k : ℝ) : EReal)) (fun k => ((mr k : ℝ) : EReal)) ((tr : ℝ) : EReal) := by
  rw [rtest_coe]
  unfold ktest adj
  rw [hn, Ideal.ofBits_zero_f32, zero_add, sum_coe_mul, sum_coe, sum_coe, half_eq, ← EReal.coe_mul, ← EReal.coe_sub,
    ← EReal.coe_add, ← EReal.coe_sub, ← EReal.coe_mul, cmp_ogt_coe, sum_compl]
  congr 1
  refine decide_eq_decide.2 ⟨fun h => by linarith, fun h => by linarith⟩

/-! ## The bytes of the last layer -/

/-- Weights that vanish outside byte `c` pick that byte's eight positions out of the 24. -/
theorem decode (f : Fin 24 → EReal) (w : Fin 8 → EReal) (c : Fin 3) :
    ∑ a : Fin 24, f a * (if a.val / 8 = c.val then w ⟨a.val % 8, Nat.mod_lt _ (by norm_num)⟩ else 0)
      = ∑ q : Fin 8, f (⟨8 * c.val + q.val, by have := c.isLt; have := q.isLt; omega⟩ : Fin 24) * w q := by
  rw [← (finProdFinEquiv : Fin 3 × Fin 8 ≃ Fin 24).sum_comp, Fintype.sum_prod_type]
  rw [Finset.sum_eq_single c]
  · refine Finset.sum_congr rfl fun q _ => ?_
    have hv : (finProdFinEquiv (c, q) : Fin 24).val = 8 * c.val + q.val := by
      simp [finProdFinEquiv]; ring
    have hd : (finProdFinEquiv (c, q) : Fin 24).val / 8 = c.val := by rw [hv]; have := q.isLt; omega
    have hm : (finProdFinEquiv (c, q) : Fin 24).val % 8 = q.val := by rw [hv]; have := q.isLt; omega
    rw [if_pos hd]
    congr 2
    · exact Fin.ext hv
    · exact Fin.ext hm
  · intro c' _ hc'
    refine Finset.sum_eq_zero fun q _ => ?_
    have hv : (finProdFinEquiv (c', q) : Fin 24).val = 8 * c'.val + q.val := by
      simp [finProdFinEquiv]; ring
    have hd : ¬ (finProdFinEquiv (c', q) : Fin 24).val / 8 = c.val := by
      rw [hv]; have := q.isLt; intro h; exact hc' (Fin.ext (by omega))
    rw [if_neg hd, mul_zero]
  · intro h; exact absurd (Finset.mem_univ c) h

end Cert.Xnor

end
-- ==== Proof.LibPlainDot.lean ====
/-
  A plain matrix product read at an entry, on the extended reals.

  For the dimension numbers of an `M×K` by `K×N` product (`DotDims.plain M K N`: contract the left operand's second
  axis with the right operand's first, no batch axis), the sum over the contraction index of the operands' products at
  output entry `(p, j)` is `∑ k, l (p, k) * r (k, j)`: the contraction index is its one coordinate `k`, the left
  operand is read at row `p`, column `k`, the right at row `k`, column `j`. From it: a vector-unit matrix product into
  the zero accumulator (`matmul_zero_apply`) and the host's `dot_general` (`dotGeneral_apply`) at `(p, j)`. A printed
  program's own record of these dimension numbers is `DotDims.plain` of its literal sizes by `rfl`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : ℕ} {φ₁ φ₂ : FTy}

/-- Left operand, axis 0: the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Right operand, axis 1: the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output `(p, j)` and contraction coordinate `k` is `(p, k)`. -/
theorem lhsIdx_plain (p : Fin M) (j : Fin N) (k : Fin K) :
    (DotDims.plain M K N).lhsIdx (ix2 p j) ((contrEquiv1 (DotDims.plain M K N) K rfl rfl).symm k) = ix2 p k := by
  have hk := contrEquiv1_symm_val (DotDims.plain M K N) K rfl rfl k
  exact funext fun a => Fin.ext (by
    match a with
    | ⟨0, _⟩ => exact lhs0 _ _
    | ⟨1, _⟩ => exact ((DotDims.plain M K N).lhsIdx_val_of_single rfl _ _).trans hk)

/-- The right operand's index at output `(p, j)` and contraction coordinate `k` is `(k, j)`. -/
theorem rhsIdx_plain (p : Fin M) (j : Fin N) (k : Fin K) :
    (DotDims.plain M K N).rhsIdx (ix2 p j) ((contrEquiv1 (DotDims.plain M K N) K rfl rfl).symm k) = ix2 k j := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => exact rhs1 _ _)

/-- The contraction's sum at output `(p, j)` is the sum over the contracted coordinate. -/
theorem sum_plain (l : (⟨2, ![M, K]⟩ : Shape).Idx → EReal) (r : (⟨2, ![K, N]⟩ : Shape).Idx → EReal) (p : Fin M) (j : Fin N) :
    ∑ q : (DotDims.plain M K N).contr.Idx,
        l ((DotDims.plain M K N).lhsIdx (ix2 p j) q) * r ((DotDims.plain M K N).rhsIdx (ix2 p j) q)
      = ∑ k : Fin K, l (ix2 p k) * r (ix2 k j) := by
  rw [← Equiv.sum_comp (contrEquiv1 (DotDims.plain M K N) K rfl rfl).symm]
  refine Finset.sum_congr rfl fun k _ => ?_
  rw [lhsIdx_plain, rhsIdx_plain]

/-- A matrix product on the vector unit into the zero accumulator, at entry `(p, j)`. -/
theorem matmul_zero_apply (prec : Option ContractPrecision) (l : FVec Ideal ⟨2, ![M, K]⟩ φ₁) (r : FVec Ideal ⟨2, ![K, N]⟩ φ₂)
    (p : Fin M) (j : Fin N) :
    FloatOps.matmul (DotDims.plain M K N) prec l r (constant ⟨2, ![M, N]⟩ .f32 0x00000000#32) (ix2 p j)
      = ∑ k : Fin K, l (ix2 p k) * r (ix2 k j) := by
  rw [Ideal.matmul_constant_zero_apply]
  exact sum_plain l r p j

/-- The host's `dot_general` at entry `(p, j)`, whatever its schedule. -/
theorem dotGeneral_apply (prec : Option ContractPrecision) (sched : HostSchedule) (l : FVec Ideal ⟨2, ![M, K]⟩ φ₁)
    (r : FVec Ideal ⟨2, ![K, N]⟩ φ₂) (p : Fin M) (j : Fin N) :
    FloatOps.dotGeneral (DotDims.plain M K N) prec sched l r (ix2 p j) = ∑ k : Fin K, l (ix2 p k) * r (ix2 k j) := by
  rw [Ideal.dotGeneral_apply]
  exact sum_plain l r p j

end Cert.Lib.PlainDot

end
-- ==== Proof.LibKeepdims.lean ====
/-
  A row reduction kept as a column: the three layout steps of `max(x, axis=-1, keepdims=True)` and
  `sum(x, axis=-1, keepdims=True)` on a matrix, each read at coordinates.

  * a `vector.multi_reduction` of an `[a, b]` matrix over its second axis, at row `i`: the fold of `max` from the
    accumulator's value, or the sum, over the row's entries `(i, k)`;
  * an `[a]` vector cast to the column `[a, 1]`, at `(i, u)`: the vector at `i`;
  * an `[a, 1]` column broadcast to `[a, b]`, at `(i, j)`: the column at `(i, 0)`.
-/
import Idealize.ShloMosaic.PureOps.Ideal.Laws
import Idealize.ShloMosaic.Lib.ValueIdx
import Idealize.ShloMosaic.Lib.Pipeline.Value

noncomputable section

namespace Idealize.ShloMosaic.ValueKeepdims

open Idealize.ShloMosaic Idealize.ShloMosaic.ValueIdx

variable {α : Type}

/-- Row `i` with column `k` put back on the reduced second axis is `(i, k)`. -/
theorem lift_axis1_ix2 {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A float `vector.multi_reduction <maximumf>` of an `[a, b]` matrix over its second axis, read on the extended reals at
    row `i`: the fold of `max`, from the accumulator's value, over the row's entries. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  have hf : (src ∘ h.lift (ix1 i)) = fun k : Fin b => src (ix2 i k) :=
    funext fun k => congrArg src (lift_axis1_ix2 h i k)
  exact congrArg (fun f => Finset.fold max (Ideal.ofBits φ acc) f (Finset.univ : Finset (Fin b))) hf

/-- A float `vector.multi_reduction <add>` of an `[a, b]` matrix over its second axis, read on the extended reals at row
    `i`: the sum of the row's entries. -/
theorem multiReduction_add_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (i : Fin a) :
    multiReduction .add [1] ⟨1, ![a]⟩ src acc h hφ hacc (ix1 i) = ∑ k : Fin b, src (ix2 i k) := by
  rw [Ideal.multiReduction_add_single]
  exact Finset.sum_congr rfl fun k _ => congrArg src (lift_axis1_ix2 h i k)

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column broadcast to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Idealize.ShloMosaic.ValueKeepdims

end
-- ==== Proof.KernelBody.lean ====
/-
  The kernel's body at an index.

  On one block of 1024 rows the body runs the three layers in the second arrangement — a matrix product of the row
  with the mask, minus half the row's sum, compared with the adjusted threshold row — each comparison's bit widened
  to a number 0 / 1 for the next layer; the last layer's 24 bits are multiplied into the 24 × 3 weight matrix.
  `layer_vec` reads one such layer at entry (p, j): the product is ∑ₖ x(p,k)·m(k,j), the row sum is taken over the
  same row, and the threshold row is read at column j. `pay2_apply`, `pay1_apply` chain the three layers and the
  final product through the body's named values.
-/
import proofs.«165525_j41077067219414_1_alg».proof.Proof.Gen.KernelIdeal.Skeleton
import proofs.«165525_j41077067219414_1_alg».proof.Proof.Laws
import proofs.«165525_j41077067219414_1_alg».proof.Proof.LibPlainDot
import proofs.«165525_j41077067219414_1_alg».proof.Proof.LibKeepdims
import Idealize.ShloMosaic.Lib.ValueLayout
import Idealize.ShloMosaic.Lib.Pipeline.Value

noncomputable section

namespace Cert.Xnor.Body

open Idealize.ShloMosaic Idealize.ShloMosaic.ValueIdx Cert.KernelIdeal Cert.KernelIdeal.Gen

/-- A comparison's bit, widened to 32 bits and converted as a signed integer, is the bit as a number. -/
theorem sitofp_extui_bit (b : BitVec 1) : FloatOps.sitofp (F := Ideal) .f32 (b.setWidth 32) = ind b := by
  show (((b.setWidth 32).toInt : ℝ) : EReal) = ((b.toNat : ℝ) : EReal)
  rw [toInt_setWidth_bit]

/-- One layer of the body at entry (p, j): `xl` is the operand of the product, `xs` the same numbers as the
    operand of the row sum. -/
theorem layer_vec {n d : ℕ} {φ₁ φ₂ : FTy}
    (D : DotDims ⟨2, ![1024, n]⟩ ⟨2, ![n, d]⟩ ⟨2, ![1024, d]⟩) (hD : D = DotDims.plain 1024 n d)
    (xl : FVec Ideal ⟨2, ![1024, n]⟩ φ₁) (xs : FVec Ideal ⟨2, ![1024, n]⟩ .f32) (hx : ∀ i, xs i = (xl i : EReal))
    (mk : FVec Ideal ⟨2, ![n, d]⟩ φ₂) (at_ : FVec Ideal ⟨2, ![1, d]⟩ .f32)
    (hred : (⟨2, ![1024, n]⟩ : Shape).Reduces [1] ⟨1, ![1024]⟩) (hφ : FKind.Formats .f32)
    (hacc : (0x00000000#32 : BitVec FTy.f32.bits) = FKind.add.neutral .f32 hφ)
    (hc : (⟨1, ![1024]⟩ : Shape).ShapeCasts ⟨2, ![1024, 1]⟩) (hb : (⟨2, ![1024, 1]⟩ : Shape).Broadcasts ⟨2, ![1024, d]⟩)
    (hb2 : (⟨2, ![1, d]⟩ : Shape).Broadcasts ⟨2, ![1024, d]⟩) (hlt : 1 < 32) (p : Fin 1024) (j : Fin d) :
    (sitofp .f32 (extui 32 (cmpf .ogt (subf (matmul D none xl mk (constant ⟨2, ![1024, d]⟩ .f32 0x00000000#32))
        (broadcastTo ⟨2, ![1024, d]⟩ (mulf (shapeCast ⟨2, ![1024, 1]⟩ (multiReduction .add [1] ⟨1, ![1024]⟩ xs 0x00000000#32 hred hφ hacc) hc)
          (broadcast ⟨2, ![1024, 1]⟩ (FloatOps.ofBits .f32 0x3F000000#32))) hb))
        (broadcastTo ⟨2, ![1024, d]⟩ at_ hb2)) hlt) : FVec Ideal ⟨2, ![1024, d]⟩ .f32) (ix2 p j)
      = ind (ktest (fun k => (xl (ix2 p k) : EReal)) (fun k => (mk (ix2 k j) : EReal)) (at_ (ix2 (0 : Fin 1) j))) := by
  subst hD
  show FloatOps.sitofp (F := Ideal) .f32 ((FloatOps.cmpf .ogt (FloatOps.subf (FloatOps.matmul (DotDims.plain 1024 n d) none xl mk
      (constant ⟨2, ![1024, d]⟩ .f32 0x00000000#32) (ix2 p j)) (broadcastTo ⟨2, ![1024, d]⟩ _ hb (ix2 p j)))
      (broadcastTo ⟨2, ![1024, d]⟩ at_ hb2 (ix2 p j))).setWidth 32) = _
  rw [sitofp_extui_bit, Cert.Lib.PlainDot.matmul_zero_apply, ValueKeepdims.broadcastTo_a1_ab_apply, broadcastTo_1b_ab_apply]
  show ind (Ideal.cmp .ogt ((∑ k : Fin n, (xl (ix2 p k) : EReal) * mk (ix2 k j))
      - shapeCast ⟨2, ![1024, 1]⟩ (multiReduction .add [1] ⟨1, ![1024]⟩ xs 0x00000000#32 hred hφ hacc) hc (ix2 p (0 : Fin 1)) * half) _) = _
  rw [ValueKeepdims.shapeCast_a_a1_apply, ValueKeepdims.multiReduction_add_row]
  unfold ktest
  simp only [hx]

/-! ## The three layers on a block, in the body's arrangement -/

/-- Layer 1 at row `p` of the block, column `j`. -/
def kh1 (x0 : FVec Ideal S1024x16 .bf16) (x1 : FVec Ideal S16x1024 .bf16) (x4 : FVec Ideal S1x1024 .f32)
    (p : Fin 1024) (j : Fin 1024) : EReal :=
  ind (ktest (fun k : Fin 16 => (x0 (ix2 p k) : EReal)) (fun k => (x1 (ix2 k j) : EReal)) (x4 (ix2 (0 : Fin 1) j)))
/-- Layer 2. -/
def kh2 (x0 : FVec Ideal S1024x16 .bf16) (x1 : FVec Ideal S16x1024 .bf16) (x4 : FVec Ideal S1x1024 .f32)
    (x2 : FVec Ideal S1024x1024 .bf16) (x5 : FVec Ideal S1x1024 .f32) (p : Fin 1024) (j : Fin 1024) : EReal :=
  ind (ktest (fun k : Fin 1024 => kh1 x0 x1 x4 p k) (fun k => (x2 (ix2 k j) : EReal)) (x5 (ix2 (0 : Fin 1) j)))
/-- Layer 3. -/
def kh3 (x0 : FVec Ideal S1024x16 .bf16) (x1 : FVec Ideal S16x1024 .bf16) (x4 : FVec Ideal S1x1024 .f32)
    (x2 : FVec Ideal S1024x1024 .bf16) (x5 : FVec Ideal S1x1024 .f32) (x3 : FVec Ideal S1024x24 .bf16)
    (x6 : FVec Ideal S1x24 .f32) (p : Fin 1024) (j : Fin 24) : EReal :=
  ind (ktest (fun k : Fin 1024 => kh2 x0 x1 x4 x2 x5 p k) (fun k => (x3 (ix2 k j) : EReal)) (x6 (ix2 (0 : Fin 1) j)))

/-- The body's second layer value (which contains the first) at (p, j). -/
theorem pay2_apply (x0 : FVec Ideal S1024x16 .bf16) (x1 : FVec Ideal S16x1024 .bf16) (x4 : FVec Ideal S1x1024 .f32)
    (x2 : FVec Ideal S1024x1024 .bf16) (x5 : FVec Ideal S1x1024 .f32) (p : Fin 1024) (j : Fin 1024) :
    k0_pay2 (F := Ideal) x0 x1 x4 x2 x5 (ix2 p j) = kh2 x0 x1 x4 x2 x5 p j := by
  unfold k0_pay2
  simp only [shapeCast_self]
  refine (layer_vec _ rfl _ _ ?_ x2 x5 _ _ _ _ _ _ _ p j).trans ?_
  · intro i; rfl
  · unfold kh2
    refine congrArg (fun f => ind (ktest f _ _)) (funext fun k => ?_)
    refine (layer_vec _ rfl x0 _ ?_ x1 x4 _ _ _ _ _ _ _ p k).trans ?_
    · intro i; rfl
    · rfl

/-- The stored value at (p, c): the third layer's 24 bits against column `c` of the weight matrix. -/
theorem pay1_apply (x0 : FVec Ideal S1024x16 .bf16) (x1 : FVec Ideal S16x1024 .bf16) (x4 : FVec Ideal S1x1024 .f32)
    (x2 : FVec Ideal S1024x1024 .bf16) (x5 : FVec Ideal S1x1024 .f32) (x3 : FVec Ideal S1024x24 .bf16)
    (x6 : FVec Ideal S1x24 .f32) (x7 : FVec Ideal S24x3 .bf16) (p : Fin 1024) (c : Fin 3) :
    k0_pay1 (F := Ideal) (k0_pay3 x0 x1 x4 x2 x5 x3) (k0_pay4 x0 x1 x4 x2 x5) x6 x7 (ix2 p c)
      = ∑ a : Fin 24, kh3 x0 x1 x4 x2 x5 x3 x6 p a * (x7 (ix2 a c) : EReal) := by
  unfold k0_pay1 k0_pay3 k0_pay4
  simp only [shapeCast_self]
  refine (Cert.Lib.PlainDot.matmul_zero_apply none _ x7 p c).trans ?_
  refine Finset.sum_congr rfl fun a _ => ?_
  refine congrArg (· * (x7 (ix2 a c) : EReal)) ?_
  refine (layer_vec _ rfl _ _ ?_ x3 x6 _ _ _ _ _ _ _ p a).trans ?_
  · intro i; rfl
  · unfold kh3
    refine congrArg (fun f => ind (ktest f _ _)) (funext fun k => ?_)
    exact pay2_apply x0 x1 x4 x2 x5 p k

end Cert.Xnor.Body

end
-- ==== Proof.Bridge.lean ====
/-
  From the body's arrangement to the specification.

  If, at row `p` of a block, the block's inputs are what the host prepared — the position code's row `r`, the masks as
  numbers, the adjusted thresholds (t + column sum − n)/2, and the weight matrix that is 2^(7 − a mod 8) at (a, a div 8)
  and zero elsewhere — then each layer of the body is the specification's layer (`ktest_adj`: all entries are bits or
  integers, hence real), and the final product over the 24 bits is the byte's weighted sum (`decode`).
-/
import proofs.«165525_j41077067219414_1_alg».proof.Proof.KernelBody

noncomputable section

namespace Cert.Xnor.Body

open Idealize.ShloMosaic Idealize.ShloMosaic.ValueIdx Cert.KernelIdeal Cert.KernelIdeal.Gen

/-- One layer: the body's test against the adjusted threshold is the specification's test. -/
theorem layer_bridge {n : ℕ} (b : Fin n → BitVec 1) (mb : Fin n → BitVec 1) (t : BitVec 32) (nlit : EReal)
    (hn : nlit = ((n : ℝ) : EReal)) :
    ktest (fun k => ind (b k)) (fun k => ind (mb k)) (adj nlit (fun k => ind (mb k)) (thr t))
      = rtest (fun k => ind (b k)) (fun k => ind (mb k)) (thr t) :=
  ktest_adj (fun k => ((b k).toNat : ℝ)) (fun k => ((mb k).toNat : ℝ)) ((t.toInt : ℝ)) nlit hn

variable (A : Args) (r : Fin 65536)
  (x0 : FVec Ideal S1024x16 .bf16) (x1 : FVec Ideal S16x1024 .bf16) (x4 : FVec Ideal S1x1024 .f32)
  (x2 : FVec Ideal S1024x1024 .bf16) (x5 : FVec Ideal S1x1024 .f32) (x3 : FVec Ideal S1024x24 .bf16)
  (x6 : FVec Ideal S1x24 .f32) (x7 : FVec Ideal S24x3 .bf16) (p : Fin 1024)

/-- What the specification's layers are as bits. -/
def B0 (k : Fin 16) : BitVec 1 := A.a1 (ix3 (⟨r.val / 256, by have := r.isLt; omega⟩ : Fin 256) (⟨r.val % 256, by omega⟩ : Fin 256) k)
def B1 (j : Fin 1024) : BitVec 1 := rtest (X0 A r) (fun k => ind (A.a2 (ix2 k j))) (thr (A.a3 (ix1 j)))
def B2 (j : Fin 1024) : BitVec 1 := rtest (H1 A r) (fun k => ind (A.a4 (ix2 k j))) (thr (A.a5 (ix1 j)))

theorem X0_eq (k : Fin 16) : X0 A r k = ind (B0 A r k) := rfl
theorem H1_eq (j : Fin 1024) : H1 A r j = ind (B1 A r j) := rfl
theorem H2_eq (j : Fin 1024) : H2 A r j = ind (B2 A r j) := rfl

theorem kh1_eq (h0 : ∀ k, (x0 (ix2 p k) : EReal) = X0 A r k) (h1 : ∀ k j, (x1 (ix2 k j) : EReal) = ind (A.a2 (ix2 k j)))
    (h4 : ∀ j, x4 (ix2 (0 : Fin 1) j) = adj (Ideal.ofBits .f32 0x41800000#32) (fun k => ind (A.a2 (ix2 k j))) (thr (A.a3 (ix1 j))))
    (j : Fin 1024) : kh1 x0 x1 x4 p j = H1 A r j := by
  unfold kh1 H1
  simp only [h0, h1, h4, X0_eq]
  exact congrArg ind (layer_bridge (B0 A r) (fun k => A.a2 (ix2 k j)) (A.a3 (ix1 j)) _ (by rw [ofBits_16]; norm_num))

theorem kh2_eq (h0 : ∀ k, (x0 (ix2 p k) : EReal) = X0 A r k) (h1 : ∀ k j, (x1 (ix2 k j) : EReal) = ind (A.a2 (ix2 k j)))
    (h4 : ∀ j, x4 (ix2 (0 : Fin 1) j) = adj (Ideal.ofBits .f32 0x41800000#32) (fun k => ind (A.a2 (ix2 k j))) (thr (A.a3 (ix1 j))))
    (h2 : ∀ k j, (x2 (ix2 k j) : EReal) = ind (A.a4 (ix2 k j)))
    (h5 : ∀ j, x5 (ix2 (0 : Fin 1) j) = adj (Ideal.ofBits .f32 0x44800000#32) (fun k => ind (A.a4 (ix2 k j))) (thr (A.a5 (ix1 j))))
    (j : Fin 1024) : kh2 x0 x1 x4 x2 x5 p j = H2 A r j := by
  unfold kh2 H2
  simp only [kh1_eq A r x0 x1 x4 p h0 h1 h4, h2, h5, H1_eq]
  exact congrArg ind (layer_bridge (B1 A r) (fun k => A.a4 (ix2 k j)) (A.a5 (ix1 j)) _ (by rw [ofBits_1024]; norm_num))

theorem kh3_eq (h0 : ∀ k, (x0 (ix2 p k) : EReal) = X0 A r k) (h1 : ∀ k j, (x1 (ix2 k j) : EReal) = ind (A.a2 (ix2 k j)))
    (h4 : ∀ j, x4 (ix2 (0 : Fin 1) j) = adj (Ideal.ofBits .f32 0x41800000#32) (fun k => ind (A.a2 (ix2 k j))) (thr (A.a3 (ix1 j))))
    (h2 : ∀ k j, (x2 (ix2 k j) : EReal) = ind (A.a4 (ix2 k j)))
    (h5 : ∀ j, x5 (ix2 (0 : Fin 1) j) = adj (Ideal.ofBits .f32 0x44800000#32) (fun k => ind (A.a4 (ix2 k j))) (thr (A.a5 (ix1 j))))
    (h3 : ∀ k j, (x3 (ix2 k j) : EReal) = ind (A.a6 (ix2 k j)))
    (h6 : ∀ j, x6 (ix2 (0 : Fin 1) j) = adj (Ideal.ofBits .f32 0x44800000#32) (fun k => ind (A.a6 (ix2 k j))) (thr (A.a7 (ix1 j))))
    (j : Fin 24) : kh3 x0 x1 x4 x2 x5 x3 x6 p j = H3 A r j := by
  unfold kh3 H3
  simp only [kh2_eq A r x0 x1 x4 x2 x5 p h0 h1 h4 h2 h5, h3, h6, H2_eq]
  exact congrArg ind (layer_bridge (B2 A r) (fun k => A.a6 (ix2 k j)) (A.a7 (ix1 j)) _ (by rw [ofBits_1024]; norm_num))

/-- The stored value at (p, c) is byte `c` of row `r`. -/
theorem pay1_eq_Img (h0 : ∀ k, (x0 (ix2 p k) : EReal) = X0 A r k) (h1 : ∀ k j, (x1 (ix2 k j) : EReal) = ind (A.a2 (ix2 k j)))
    (h4 : ∀ j, x4 (ix2 (0 : Fin 1) j) = adj (Ideal.ofBits .f32 0x41800000#32) (fun k => ind (A.a2 (ix2 k j))) (thr (A.a3 (ix1 j))))
    (h2 : ∀ k j, (x2 (ix2 k j) : EReal) = ind (A.a4 (ix2 k j)))
    (h5 : ∀ j, x5 (ix2 (0 : Fin 1) j) = adj (Ideal.ofBits .f32 0x44800000#32) (fun k => ind (A.a4 (ix2 k j))) (thr (A.a5 (ix1 j))))
    (h3 : ∀ k j, (x3 (ix2 k j) : EReal) = ind (A.a6 (ix2 k j)))
    (h6 : ∀ j, x6 (ix2 (0 : Fin 1) j) = adj (Ideal.ofBits .f32 0x44800000#32) (fun k => ind (A.a6 (ix2 k j))) (thr (A.a7 (ix1 j))))
    (h7 : ∀ (a : Fin 24) (c : Fin 3), (x7 (ix2 a c) : EReal) = if a.val / 8 = c.val then W ⟨a.val % 8, Nat.mod_lt _ (by norm_num)⟩ else 0)
    (c : Fin 3) :
    k0_pay1 (F := Ideal) (k0_pay3 x0 x1 x4 x2 x5 x3) (k0_pay4 x0 x1 x4 x2 x5) x6 x7 (ix2 p c) = Img A r c := by
  rw [pay1_apply]
  simp only [kh3_eq A r x0 x1 x4 x2 x5 x3 x6 p h0 h1 h4 h2 h5 h3 h6, h7]
  exact decode (H3 A r) W c

end Cert.Xnor.Body

end
-- ==== Proof.Prelude.lean ====
/-
  What the region finds in its windows' arrays: the host operations before the call, read at an index.

  * the position code reshaped to [65536, 16] and the three masks, converted to numbers: entry by entry the bit as 0 / 1;
  * the three adjusted threshold rows: at column j, (tⱼ + ∑ₖ mₖⱼ − n)·(1/2), the column sum a host reduction started
    from the zero word (`adj_row`, generic in the layer's sizes).
-/
import proofs.«165525_j41077067219414_1_alg».proof.Proof.Gen.KernelIdeal.Frame
import proofs.«165525_j41077067219414_1_alg».proof.Proof.Laws
import Idealize.ShloMosaic.Lib.StableHlo.Run
import Idealize.ShloMosaic.Lib.Pipeline.Value
import Idealize.ShloMosaic.PureOps.Ideal.Laws

noncomputable section

namespace Cert.Xnor.Pre

open Idealize.ShloMosaic Idealize.ShloMosaic.ValueIdx Idealize.ShloMosaic.StableHlo Idealize.ShloMosaic.TcCoe
open Cert.KernelIdeal Cert.KernelIdeal.Gen Idealize.SL.Sem

/-- Row 0 of the reduced axis put back under column `j` is `(k, j)`. -/
theorem lift_axis0_ix2 {n d : ℕ} (h : (⟨2, ![n, d]⟩ : Shape).Reduces [0] (⟨1, ![d]⟩ : Shape)) (j : Fin d)
    (k : Fin ((⟨2, ![n, d]⟩ : Shape).size 0)) : h.lift (ix1 j) k = ix2 (⟨k.val, k.isLt⟩ : Fin n) j := by
  funext c; apply Fin.ext
  fin_cases c <;> rfl

/-- An adjusted threshold row at column `j`. -/
theorem adj_row {n d : ℕ} (hd : d ≠ 1) (mk : IVec ⟨2, ![n, d]⟩ 1) (t : IVec ⟨1, ![d]⟩ 32) (lit : BitVec 32)
    (hb1 : (⟨1, ![d]⟩ : Shape).BroadcastsInDim ⟨2, ![1, d]⟩ ![1]) (hb0 : (⟨0, ![]⟩ : Shape).BroadcastsInDim ⟨2, ![1, d]⟩ ![])
    (hr : (⟨2, ![n, d]⟩ : Shape).ReducesTo [0] ⟨1, ![d]⟩) (hred : (⟨2, ![n, d]⟩ : Shape).Reduces [0] ⟨1, ![d]⟩)
    (h0 : 0 < (⟨0, ![]⟩ : Shape).numel) (j : Fin d) :
    (mulf (subf (addf (broadcastInDim ⟨2, ![1, d]⟩ ![1] hb1 (sitofp .f32 t))
        (broadcastInDim ⟨2, ![1, d]⟩ ![1] hb1 (Host.reduceAdd (uitofp .f32 mk) (constant ⟨0, ![]⟩ .f32 0x00000000#32) hr h0)))
        (broadcastInDim ⟨2, ![1, d]⟩ ![] hb0 (constant ⟨0, ![]⟩ .f32 lit)))
        (broadcastInDim ⟨2, ![1, d]⟩ ![] hb0 (constant ⟨0, ![]⟩ .f32 0x3F000000#32)) : FVec Ideal ⟨2, ![1, d]⟩ .f32) (ix2 (0 : Fin 1) j)
      = adj (Ideal.ofBits .f32 lit) (fun k => ind (mk (ix2 k j))) (thr (t (ix1 j))) := by
  have hk : ∀ a : Fin (⟨1, ![d]⟩ : Shape).rank, ((ix1 j : (⟨1, ![d]⟩ : Shape).Idx) a).val
      = if (⟨1, ![d]⟩ : Shape).size a = 1 then 0 else ((ix2 (0 : Fin 1) j : (⟨2, ![1, d]⟩ : Shape).Idx) ((![1] : Fin 1 → Fin 2) a)).val := fun a =>
    match a with
    | ⟨0, _⟩ => by show j.val = if d = 1 then 0 else j.val; rw [if_neg hd]
  show (broadcastInDim ⟨2, ![1, d]⟩ ![1] hb1 (sitofp .f32 t) (ix2 (0 : Fin 1) j)
      + broadcastInDim ⟨2, ![1, d]⟩ ![1] hb1 (Host.reduceAdd (uitofp .f32 mk) (constant ⟨0, ![]⟩ .f32 0x00000000#32) hr h0) (ix2 (0 : Fin 1) j)
      - broadcastInDim ⟨2, ![1, d]⟩ ![] hb0 (constant (F := Ideal) ⟨0, ![]⟩ .f32 lit) (ix2 (0 : Fin 1) j))
      * broadcastInDim ⟨2, ![1, d]⟩ ![] hb0 (constant (F := Ideal) ⟨0, ![]⟩ .f32 0x3F000000#32) (ix2 (0 : Fin 1) j) = _
  rw [broadcastInDim_apply ![1] hb1 (sitofp (F := Ideal) .f32 t) (ix2 (0 : Fin 1) j) (ix1 j) hk,
    broadcastInDim_apply ![1] hb1 (Host.reduceAdd (uitofp (F := Ideal) .f32 mk) (constant ⟨0, ![]⟩ .f32 0x00000000#32) hr h0) (ix2 (0 : Fin 1) j) (ix1 j) hk,
    broadcastInDim_apply ![] hb0 (constant (F := Ideal) ⟨0, ![]⟩ .f32 lit) (ix2 (0 : Fin 1) j) ix0 (fun a => a.elim0),
    broadcastInDim_apply ![] hb0 (constant (F := Ideal) ⟨0, ![]⟩ .f32 0x3F000000#32) (ix2 (0 : Fin 1) j) ix0 (fun a => a.elim0)]
  have hsum : Host.reduceAdd (uitofp (F := Ideal) .f32 mk) (constant ⟨0, ![]⟩ .f32 0x00000000#32) hr h0 (ix1 j)
      = Ideal.ofBits .f32 0x00000000#32 + ∑ k : Fin n, ind (mk (ix2 k j)) := by
    simp only [Host.reduceAdd, Ideal.hostReduceAdd_def]
    rw [Ideal.hostReduceAdd_single hr hred]
    refine congrArg (_ + ·) ?_
    show ∑ k : Fin n, uitofp (F := Ideal) .f32 mk (hred.lift (ix1 j) k) = _
    refine Finset.sum_congr rfl fun k _ => ?_
    rw [lift_axis0_ix2 hred j k]
    rfl
  rw [hsum]
  rfl

variable (m : (ℓ : Loc nD τ sig) → Buf (Elt Ideal) ℓ) (c : Dev nD)

/-- The integer and boolean arguments as launched on core `c`. -/
def argsOf : Args where
  a1 := m (c, Proc.devRef .tc main_arg1)
  a2 := m (c, Proc.devRef .tc main_arg2)
  a3 := m (c, Proc.devRef .tc main_arg3)
  a4 := m (c, Proc.devRef .tc main_arg4)
  a5 := m (c, Proc.devRef .tc main_arg5)
  a6 := m (c, Proc.devRef .tc main_arg6)
  a7 := m (c, Proc.devRef .tc main_arg7)

/-! ## The windows' arrays as the host operations' terms -/

set_option maxRecDepth 8192 in
theorem V_v1 : (Gen.V (F := Ideal) m c main_v1 : FVec Ideal S65536x16 .bf16) = (uitofp .bf16 (shapeCast S65536x16 (argsOf m c).a1 Facts₀.shapeCasts_S256x256x16_S65536x16) : FVec Ideal S65536x16 .bf16) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results_simp <;> rfl

set_option maxRecDepth 8192 in
theorem V_v12 : (Gen.V (F := Ideal) m c main_v12 : FVec Ideal S16x1024 .bf16) = (uitofp .bf16 (argsOf m c).a2 : FVec Ideal S16x1024 .bf16) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results_simp <;> rfl

set_option maxRecDepth 8192 in
theorem V_v23 : (Gen.V (F := Ideal) m c main_v23 : FVec Ideal S1024x1024 .bf16) = (uitofp .bf16 (argsOf m c).a4 : FVec Ideal S1024x1024 .bf16) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results_simp <;> rfl

set_option maxRecDepth 8192 in
theorem V_v34 : (Gen.V (F := Ideal) m c main_v34 : FVec Ideal S1024x24 .bf16) = (uitofp .bf16 (argsOf m c).a6 : FVec Ideal S1024x24 .bf16) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results_simp <;> rfl

set_option maxRecDepth 8192 in
theorem V_v11 : (Gen.V (F := Ideal) m c main_v11 : FVec Ideal S1x1024 .f32) = (mulf (subf (addf (broadcastInDim S1x1024 ![1] Facts₀.bcast_S1024_S1x1024_1 (sitofp .f32 (argsOf m c).a3))
      (broadcastInDim S1x1024 ![1] Facts₀.bcast_S1024_S1x1024_1 (Host.reduceAdd (uitofp .f32 (argsOf m c).a2) (constant S_ .f32 0x00000000#32) Facts₀.reducesTo_S16x1024_S1024_d0 Facts₀.h_S_)))
      (broadcastInDim S1x1024 ![] Facts₀.bcast_S_S1x1024 (constant S_ .f32 0x41800000#32)))
      (broadcastInDim S1x1024 ![] Facts₀.bcast_S_S1x1024 (constant S_ .f32 0x3F000000#32)) : FVec Ideal S1x1024 .f32) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results_simp <;> rfl

set_option maxRecDepth 8192 in
theorem V_v22 : (Gen.V (F := Ideal) m c main_v22 : FVec Ideal S1x1024 .f32) = (mulf (subf (addf (broadcastInDim S1x1024 ![1] Facts₀.bcast_S1024_S1x1024_1 (sitofp .f32 (argsOf m c).a5))
      (broadcastInDim S1x1024 ![1] Facts₀.bcast_S1024_S1x1024_1 (Host.reduceAdd (uitofp .f32 (argsOf m c).a4) (constant S_ .f32 0x00000000#32) Facts₀.reducesTo_S1024x1024_S1024_d0 Facts₀.h_S_)))
      (broadcastInDim S1x1024 ![] Facts₀.bcast_S_S1x1024 (constant S_ .f32 0x44800000#32)))
      (broadcastInDim S1x1024 ![] Facts₀.bcast_S_S1x1024 (constant S_ .f32 0x3F000000#32)) : FVec Ideal S1x1024 .f32) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results_simp <;> rfl

set_option maxRecDepth 8192 in
theorem V_v33 : (Gen.V (F := Ideal) m c main_v33 : FVec Ideal S1x24 .f32) = (mulf (subf (addf (broadcastInDim S1x24 ![1] Facts₀.bcast_S24_S1x24_1 (sitofp .f32 (argsOf m c).a7))
      (broadcastInDim S1x24 ![1] Facts₀.bcast_S24_S1x24_1 (Host.reduceAdd (uitofp .f32 (argsOf m c).a6) (constant S_ .f32 0x00000000#32) Facts₀.reducesTo_S1024x24_S24_d0 Facts₀.h_S_)))
      (broadcastInDim S1x24 ![] Facts₀.bcast_S_S1x24 (constant S_ .f32 0x44800000#32)))
      (broadcastInDim S1x24 ![] Facts₀.bcast_S_S1x24 (constant S_ .f32 0x3F000000#32)) : FVec Ideal S1x24 .f32) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results_simp <;> rfl

/-! ## Read at an index -/

/-- Row `r` of the reshaped position code, entry `k`. -/
theorem v1_apply (r : Fin 65536) (k : Fin 16) :
    (Gen.V (F := Ideal) m c main_v1 : FVec Ideal S65536x16 .bf16) (ix2 r k) = X0 (argsOf m c) r k := by
  rw [V_v1]
  show FloatOps.uitofp (F := Ideal) .bf16 (shapeCast S65536x16 (argsOf m c).a1 Facts₀.shapeCasts_S256x256x16_S65536x16 (ix2 r k)) = _
  rw [shapeCast_apply (argsOf m c).a1 Facts₀.shapeCasts_S256x256x16_S65536x16 (ix2 r k)
    (ix3 (⟨r.val / 256, by have := r.isLt; omega⟩ : Fin 256) (⟨r.val % 256, by omega⟩ : Fin 256) k)
    (by rw [Shape.rowMajor_val_three, Shape.rowMajor_val_two]; show (r.val / 256 * 256 + r.val % 256) * 16 + k.val = r.val * 16 + k.val; omega)]
  rfl

theorem v12_apply (k : Fin 16) (j : Fin 1024) :
    (Gen.V (F := Ideal) m c main_v12 : FVec Ideal S16x1024 .bf16) (ix2 k j) = ind ((argsOf m c).a2 (ix2 k j)) := by
  rw [V_v12]; rfl
theorem v23_apply (k : Fin 1024) (j : Fin 1024) :
    (Gen.V (F := Ideal) m c main_v23 : FVec Ideal S1024x1024 .bf16) (ix2 k j) = ind ((argsOf m c).a4 (ix2 k j)) := by
  rw [V_v23]; rfl
theorem v34_apply (k : Fin 1024) (j : Fin 24) :
    (Gen.V (F := Ideal) m c main_v34 : FVec Ideal S1024x24 .bf16) (ix2 k j) = ind ((argsOf m c).a6 (ix2 k j)) := by
  rw [V_v34]; rfl

theorem v11_apply (j : Fin 1024) :
    (Gen.V (F := Ideal) m c main_v11 : FVec Ideal S1x1024 .f32) (ix2 (0 : Fin 1) j)
      = adj (Ideal.ofBits .f32 0x41800000#32) (fun k => ind ((argsOf m c).a2 (ix2 k j))) (thr ((argsOf m c).a3 (ix1 j))) := by
  rw [V_v11]
  exact adj_row (by decide) (argsOf m c).a2 (argsOf m c).a3 0x41800000#32 _ _ _ (by decide) _ j
theorem v22_apply (j : Fin 1024) :
    (Gen.V (F := Ideal) m c main_v22 : FVec Ideal S1x1024 .f32) (ix2 (0 : Fin 1) j)
      = adj (Ideal.ofBits .f32 0x44800000#32) (fun k => ind ((argsOf m c).a4 (ix2 k j))) (thr ((argsOf m c).a5 (ix1 j))) := by
  rw [V_v22]
  exact adj_row (by decide) (argsOf m c).a4 (argsOf m c).a5 0x44800000#32 _ _ _ (by decide) _ j
theorem v33_apply (j : Fin 24) :
    (Gen.V (F := Ideal) m c main_v33 : FVec Ideal S1x24 .f32) (ix2 (0 : Fin 1) j)
      = adj (Ideal.ofBits .f32 0x44800000#32) (fun k => ind ((argsOf m c).a6 (ix2 k j))) (thr ((argsOf m c).a7 (ix1 j))) := by
  rw [V_v33]
  exact adj_row (by decide) (argsOf m c).a6 (argsOf m c).a7 0x44800000#32 _ _ _ (by decide) _ j

end Cert.Xnor.Pre

end
-- ==== Proof.LibScatterSet.lean ====
/-
  A scatter whose body returns the update (a "set"), at index vectors that are all inside the operand and
  pairwise distinct: the result holds each update at its place and the operand everywhere else.
-/
import Idealize.ShloMosaic.PureOps.ShapeOps

namespace Cert.LibScatterSet

open Idealize.ShloMosaic

variable {s si u : Shape} {α : Type} {w : Nat}

/-- One step of a set-scatter whose update number `n` lands at `g n`: the array `r` with the entry at `g n`
    replaced by `v n`. Folding these steps over a list of update numbers, an index that is no `g n` of the list
    keeps its first value. -/
theorem foldl_set_miss {ι κ : Type} [DecidableEq κ] (g : ι → κ) (v : ι → α) (l : List ι) (x : κ → α) (i' : κ)
    (h : ∀ n ∈ l, g n ≠ i') :
    l.foldl (fun r n => fun i' => if i' = g n then v n else r i') x i' = x i' := by
  induction l generalizing x with
  | nil => rfl
  | cons n l ih =>
    rw [List.foldl_cons, ih _ (fun m hm => h m (List.mem_cons_of_mem _ hm))]
    exact if_neg (fun e => h n List.mem_cons_self e.symm)

/-- Folding the same steps over a list without repetition, where `g` is injective on the list: the index `g n` of
    a member `n` ends with `v n` (no later step touches it). -/
theorem foldl_set_hit {ι κ : Type} [DecidableEq κ] (g : ι → κ) (v : ι → α) (l : List ι) (x : κ → α)
    (hl : l.Nodup) (hinj : ∀ a ∈ l, ∀ b ∈ l, g a = g b → a = b) (n : ι) (hn : n ∈ l) :
    l.foldl (fun r n => fun i' => if i' = g n then v n else r i') x (g n) = v n := by
  induction l generalizing x with
  | nil => exact absurd hn List.not_mem_nil
  | cons m l ih =>
    rw [List.foldl_cons]
    obtain ⟨hm, hl'⟩ := List.nodup_cons.1 hl
    rcases List.mem_cons.1 hn with rfl | hn'
    · rw [foldl_set_miss g v l _ (g n) (fun k hk e =>
        hm (by rw [← hinj k (List.mem_cons_of_mem _ hk) n List.mem_cons_self e]; exact hk))]
      exact if_pos rfl
    · exact ih _ hl' (fun a ha b hb => hinj a (List.mem_cons_of_mem _ ha) b (List.mem_cons_of_mem _ hb)) hn'

/-- A set-scatter all of whose update indices `j` land inside the operand, at `g j`, is the fold of the plain
    replacement steps over the update numbers in row-major order. -/
theorem scatter_set_eq_foldl (d : ScatterDims s si u) (x : s.Idx → α) (idx : IVec si w) (upd : u.Idx → α)
    (g : u.Idx → s.Idx) (hg : ∀ j, d.resultIdx? j idx = some (g j)) :
    Host.scatter d (fun _ b => b) x idx upd
      = (List.finRange u.numel).foldl
          (fun r n => fun i' => if i' = g (u.rowMajor.symm n) then upd (u.rowMajor.symm n) else r i') x := by
  unfold Host.scatter
  refine congrArg (fun f => List.foldl f x (List.finRange u.numel)) ?_
  funext r n
  simp only [hg]

/-- **A set-scatter at distinct places, read at a place that is written.** If every update index `j` lands inside
    the operand at `g j` and `g` is injective, the result at `g j` is the update `upd j`. -/
theorem scatter_set_hit (d : ScatterDims s si u) (x : s.Idx → α) (idx : IVec si w) (upd : u.Idx → α)
    (g : u.Idx → s.Idx) (hg : ∀ j, d.resultIdx? j idx = some (g j)) (hinj : Function.Injective g) (j : u.Idx) :
    Host.scatter d (fun _ b => b) x idx upd (g j) = upd j := by
  rw [scatter_set_eq_foldl d x idx upd g hg]
  have h := foldl_set_hit (fun n => g (u.rowMajor.symm n)) (fun n => upd (u.rowMajor.symm n))
    (List.finRange u.numel) x (List.nodup_finRange _)
    (fun a _ b _ e => u.rowMajor.symm.injective (hinj e)) (u.rowMajor j) (List.mem_finRange _)
  simpa only [Equiv.symm_apply_apply] using h

/-- **A set-scatter at distinct places, read at a place that is not written.** If every update index `j` lands
    inside the operand at `g j`, the result at an index that is no `g j` is the operand's. -/
theorem scatter_set_miss (d : ScatterDims s si u) (x : s.Idx → α) (idx : IVec si w) (upd : u.Idx → α)
    (g : u.Idx → s.Idx) (hg : ∀ j, d.resultIdx? j idx = some (g j)) (i' : s.Idx) (h : ∀ j, g j ≠ i') :
    Host.scatter d (fun _ b => b) x idx upd i' = x i' := by
  rw [scatter_set_eq_foldl d x idx upd g hg]
  exact foldl_set_miss (fun n => g (u.rowMajor.symm n)) (fun n => upd (u.rowMajor.symm n))
    (List.finRange u.numel) x i' (fun n _ => h _)

end Cert.LibScatterSet
-- ==== Proof.WeightMap.lean ====
/-
  The weight matrix of the kernel's last product. The host program builds, from constants only, a 24 × 3 array: the
  24 numbers 2^(7 − n mod 8), n < 24, written by a scatter into a zero array at the places (n, n div 8). Read at
  (a, ch) it is therefore the weight of bit a mod 8 of a byte when a div 8 = ch, and zero elsewhere.
-/
import proofs.«165525_j41077067219414_1_alg».proof.Proof.Spec
import proofs.«165525_j41077067219414_1_alg».proof.Proof.LibScatterSet
import proofs.«165525_j41077067219414_1_alg».proof.Proof.Gen.KernelIdeal.Frame

noncomputable section

namespace Cert.Xnor.Wmap

open Cert.KernelIdeal Cert.KernelIdeal.Gen
open Idealize.ShloMosaic Idealize.ShloMosaic.ValueIdx Idealize.ShloMosaic.StableHlo

/-- A two-piece concatenation with the pieces as plain arguments (the list form hides them from rewriting). -/
def cat2 {α : Type} (t : Shape) (a : Fin t.rank) (s₁ s₂ : Shape) (h : Shape.Concatenates [s₁, s₂] t a)
    (x₁ : s₁.Idx → α) (x₂ : s₂.Idx → α) : t.Idx → α :=
  concatenate t a [⟨s₁, x₁⟩, ⟨s₂, x₂⟩] h

theorem concatenate_pair_eq {α : Type} (t : Shape) (a : Fin t.rank) (s₁ s₂ : Shape) (h : Shape.Concatenates [s₁, s₂] t a)
    (x₁ : s₁.Idx → α) (x₂ : s₂.Idx → α) : concatenate t a [⟨s₁, x₁⟩, ⟨s₂, x₂⟩] h = cat2 t a s₁ s₂ h x₁ x₂ := rfl

/-! ## The integer arrays, as the program computes them -/

/-- 0, 1, …, 23. -/
def iota24 : IVec S24 32 := iotaInDim S24 32 0
/-- A constant word, 24 times. -/
def bI (v : BitVec 32) : IVec S24 32 := broadcastInDim S24 ![] Facts₀.bcast_S_S24 (constantI S_ 32 v)

/-- n div 8 rounded towards minus infinity: the truncated quotient, less one where the signs differ and the
    remainder is not zero. -/
def fdiv : IVec S24 32 :=
  select
    (andi
      (cmpi .ne (signi iota24) (broadcastInDim S24 ![] Facts₀.bcast_S_S24 (signi (constantI S_ 32 8#32))))
      (cmpi .ne (Host.remsi iota24 (bI 8#32)) (bI 0#32)))
    (subi (Host.divsi iota24 (bI 8#32)) (bI 1#32))
    (Host.divsi iota24 (bI 8#32))

/-- The divisor of the remainder: 8, or 1 were it zero. -/
def rdiv : IVec S_ 32 :=
  select (cmpi .eq (constantI S_ 32 8#32) (constantI S_ 32 0#32)) (constantI S_ 32 1#32) (constantI S_ 32 8#32)

/-- n mod 8 with the sign of the divisor: the truncated remainder, plus the divisor where the signs differ and it is
    not zero. -/
def rem : IVec S24 32 :=
  select
    (andi
      (cmpi .ne (cmpi .slt (Host.remsi iota24 (broadcastInDim S24 ![] Facts₀.bcast_S_S24 rdiv)) (bI 0#32))
        (broadcastInDim S24 ![] Facts₀.bcast_S_S24 (cmpi .slt rdiv (constantI S_ 32 0#32))))
      (cmpi .ne (Host.remsi iota24 (broadcastInDim S24 ![] Facts₀.bcast_S_S24 rdiv)) (bI 0#32)))
    (addi (Host.remsi iota24 (broadcastInDim S24 ![] Facts₀.bcast_S_S24 rdiv)) (broadcastInDim S24 ![] Facts₀.bcast_S_S24 rdiv))
    (Host.remsi iota24 (broadcastInDim S24 ![] Facts₀.bcast_S_S24 rdiv))

/-- A negative index wrapped once by the axis length `len`. -/
def wrap (x : IVec S24 32) (len : BitVec 32) : IVec S24 32 :=
  select (cmpi .slt x (bI 0#32)) (addi x (bI len)) x

/-- The scatter's index vectors: row `n` is `(n, n div 8)`. -/
def idxArr : IVec S24x2 32 :=
  cat2 S24x2 1 S24x1 S24x1 Facts₀.concatenates_S24x1_S24x1_S24x2_d1
    (broadcastInDim S24x1 ![0] Facts₀.bcast_S24_S24x1_0 (wrap iota24 24#32))
    (broadcastInDim S24x1 ![0] Facts₀.bcast_S24_S24x1_0 (wrap fdiv 3#32))

/-- The scatter's updates: 2 to the power 7 − n mod 8. -/
def updVec : FVec Ideal S24 .f32 :=
  Host.powf (broadcastInDim S24 ![] Facts₀.bcast_S_S24 (constant (F := Ideal) S_ .f32 0x40000000#32))
    (sitofp .f32 (subi (bI 7#32) rem))

/-- The array the scatter writes into: zeros. -/
def zeros : FVec Ideal S24x3 .f32 := broadcastInDim S24x3 ![] Facts₀.bcast_S_S24x3 (constant (F := Ideal) S_ .f32 0x00000000#32)

/-! ## The program's array is the scatter of these -/

set_option maxHeartbeats 4000000 in
/-- The array the kernel's last window reads, as the host operations' composed term: every operation's result at its
    own buffer is its function of its operands' contents, and no later operation overwrites it. -/
theorem V_main_v58_eq (m : (ℓ : Loc nD τ sig) → Buf (Elt Ideal) ℓ) (c : Dev nD) :
    (Gen.V (F := Ideal) m c main_v58 : S24x3.Idx → EReal)
      = truncf .bf16 (Host.scatter scatter_S24x3_S24x2_S24_n_01_01_1 (fun _ b => b) zeros idxArr updVec) Facts₀.bitsLt_bf16_f32 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append, TRef.nullary, TRef.unary, TRef.binary, TRef.ternary]
  simp (disch := decide) only [after_cons, after_nil, concatenate_pair_eq,
    nullary_result', unary_result', binary_result', ternary_result',
    nullary_result_ne', unary_result_ne', binary_result_ne', ternary_result_ne', reshape_result_ne']
  rfl

/-! ## The integers, by evaluation -/

set_option maxRecDepth 100000 in
set_option maxHeartbeats 4000000 in
/-- The exponent of update number `n` is the integer 7 − n mod 8. -/
theorem rem_toInt (n : Fin 24) : (subi (bI 7#32) rem (ix1 n)).toInt = 7 - ((n.val % 8 : ℕ) : ℤ) := by
  revert n; decide

set_option maxRecDepth 100000 in
set_option maxHeartbeats 4000000 in
/-- Update number `n` lands inside the array, at `(n, n div 8)`. -/
theorem idx_res (n : Fin 24) :
    scatter_S24x3_S24x2_S24_n_01_01_1.resultIdx? (ix1 n) idxArr
      = some (ix2 n (⟨n.val / 8, by have := n.isLt; omega⟩ : Fin 3)) := by
  revert n; decide

/-- Where update index `j` lands. -/
def place (j : S24.Idx) : S24x3.Idx :=
  ix2 (⟨(j 0).val, (j 0).isLt⟩ : Fin 24) (⟨(j 0).val / 8, by have : (j 0).val < 24 := (j 0).isLt; omega⟩ : Fin 3)

theorem res_place (j : S24.Idx) : scatter_S24x3_S24x2_S24_n_01_01_1.resultIdx? j idxArr = some (place j) := by
  obtain ⟨n, rfl⟩ : ∃ n : Fin 24, j = ix1 n := ⟨j 0, eq_ix1 j⟩
  exact idx_res n

theorem place_inj : Function.Injective place := by
  intro j j' h
  have h0 : (place j 0).val = (place j' 0).val := by rw [h]
  have e : j 0 = j' 0 := Fin.ext h0
  rw [eq_ix1 j, eq_ix1 j', e]

/-! ## The array read at an index -/

/-- The weight array at `(a, ch)`: the weight of bit `a mod 8` when row `a` belongs to byte `ch`, zero otherwise. -/
theorem V_main_v58_apply (m : (ℓ : Loc nD τ sig) → Buf (Elt Ideal) ℓ) (c : Dev nD) (a : Fin 24) (ch : Fin 3) :
    (Gen.V (F := Ideal) m c main_v58 : S24x3.Idx → EReal) (ix2 a ch)
      = if a.val / 8 = ch.val then Cert.Xnor.W ⟨a.val % 8, Nat.mod_lt _ (by norm_num)⟩ else 0 := by
  rw [V_main_v58_eq m c]
  show Host.scatter scatter_S24x3_S24x2_S24_n_01_01_1 (fun _ b => b) zeros idxArr updVec (ix2 a ch) = _
  by_cases h : a.val / 8 = ch.val
  · rw [if_pos h]
    have hp : (ix2 a ch : S24x3.Idx) = place (ix1 a) := by
      have e : ch = (⟨a.val / 8, by have := a.isLt; omega⟩ : Fin 3) := Fin.ext h.symm
      rw [e]; rfl
    rw [hp, Cert.LibScatterSet.scatter_set_hit _ zeros idxArr updVec place res_place place_inj (ix1 a)]
    show Ideal.pow (Ideal.ofBits .f32 0x40000000#32) (((subi (bI 7#32) rem (ix1 a)).toInt : ℝ) : EReal) = _
    rw [rem_toInt a]
    rfl
  · rw [if_neg h, Cert.LibScatterSet.scatter_set_miss _ zeros idxArr updVec place res_place (ix2 a ch)]
    · exact Ideal.ofBits_zero_f32
    · intro j hj
      apply h
      have h0 : (place j 0).val = ((ix2 a ch : S24x3.Idx) 0).val := by rw [hj]
      have h1 : (place j 1).val = ((ix2 a ch : S24x3.Idx) 1).val := by rw [hj]
      change (j 0).val = a.val at h0
      change (j 0).val / 8 = ch.val at h1
      rw [← h0]; exact h1

end Cert.Xnor.Wmap

end
-- ==== Proof.Blocks.lean ====
/-
  From blocks to the array.

  The region has 64 grid points; point `t` reads rows 1024·t … 1024·t + 1023 of the position code and the whole of every
  other operand, and writes rows 1024·t … 1024·t + 1023 of the [65536, 3] result. So what point `t` writes back is
  block `t` of the image `Flat`: entry (p, c) of the block is byte c of row 1024·t + p (the body read at an index, with the
  host-prepared operands read at an index). The 64 blocks tile the array, so after the run the array is `Flat`.
-/
import proofs.«165525_j41077067219414_1_alg».proof.Proof.Bridge
import proofs.«165525_j41077067219414_1_alg».proof.Proof.Prelude
import proofs.«165525_j41077067219414_1_alg».proof.Proof.WeightMap

set_option maxRecDepth 16384

noncomputable section

namespace Cert.Xnor.Blocks

open Idealize.ShloMosaic Idealize.ShloMosaic.ValueIdx Idealize.ShloMosaic.TcCoe
open Cert.KernelIdeal Cert.KernelIdeal.Gen Idealize.SL.Sem Cert.Xnor.Pre Cert.Xnor.Body
open Idealize.ShloMosaic.Pipeline (Dat)

variable (m : (ℓ : Loc nD τ sig) → Buf (Elt Ideal) ℓ) (c : Dev nD)

theorem hz : (![0, 0] : Fin 2 → Nat) = fun _ => 0 := funext fun a => by fin_cases a <;> rfl

/-- The printed index maps over the grid: the first operand and the result move one block of rows per point; every other
    operand stays at block (0, 0). -/
theorem idx_facts : ∀ t : Fin cfg0.N, win0_0.index t (0 : Fin 2) = t.val ∧ win0_0.index t (1 : Fin 2) = 0
    ∧ win0_8.index t (0 : Fin 2) = t.val ∧ win0_8.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

theorem t_lt (t : Fin cfg0.N) : t.val < 64 := by have h := t.isLt; have hN : cfg0.N = 64 := Gen.N_0; omega

/-! ## The blocks the body reads -/

/-- Row `p` of the first operand's block at point `t` is row 1024·t + p of the position code. -/
theorem blk0 (t : Fin cfg0.N) (p : Fin 1024) (k : Fin 16) :
    (iblk m c 0 t (ix2 p k) : EReal) = X0 (argsOf m c) (⟨t.val * 1024 + p.val, by have := t_lt t; have := p.isLt; omega⟩ : Fin 65536) k := by
  obtain ⟨e0, e1, -⟩ := idx_facts t
  show (V m c main_v1 : FVec Ideal S65536x16 .bf16) (((cfg0.win 0).blk t).view.emb (ix2 p k)) = _
  have he : ((cfg0.win 0).blk t).view.emb (ix2 p k)
      = ix2 (⟨t.val * 1024 + p.val, by have := t_lt t; have := p.isLt; omega⟩ : Fin 65536) k := by
    funext a; apply Fin.ext
    match a with
    | ⟨0, _⟩ => show win0_0.index t (0 : Fin 2) * 1024 + 1 * p.val = t.val * 1024 + p.val; omega
    | ⟨1, _⟩ => show win0_0.index t (1 : Fin 2) * 16 + 1 * k.val = k.val; omega
  rw [he]
  exact v1_apply m c _ k

/-- The resident operands: every point reads the whole array. -/

theorem blk1 (t : Fin cfg0.N) (k : Fin 16) (j : Fin 1024) :
    (iblk m c 1 t (ix2 k j) : EReal) = ind ((argsOf m c).a2 (ix2 k j)) := by
  obtain ⟨e00, e01, e80, e81, e10, e11, e20, e21, e30, e31, e40, e41, e50, e51, e60, e61, e70, e71⟩ := idx_facts t
  show (V m c main_v12 : FVec Ideal S16x1024 .bf16) (((cfg0.win 1).blk t).view.emb (ix2 k j)) = _
  have he : ((cfg0.win 1).blk t).view.emb (ix2 k j) = ix2 k j := by
    funext ax; apply Fin.ext
    match ax with
    | ⟨0, _⟩ => show win0_1.index t (0 : Fin 2) * 16 + 1 * k.val = k.val; omega
    | ⟨1, _⟩ => show win0_1.index t (1 : Fin 2) * 1024 + 1 * j.val = j.val; omega
  rw [he]
  exact v12_apply m c k j

theorem blk2 (t : Fin cfg0.N) (k : Fin 1024) (j : Fin 1024) :
    (iblk m c 2 t (ix2 k j) : EReal) = ind ((argsOf m c).a4 (ix2 k j)) := by
  obtain ⟨e00, e01, e80, e81, e10, e11, e20, e21, e30, e31, e40, e41, e50, e51, e60, e61, e70, e71⟩ := idx_facts t
  show (V m c main_v23 : FVec Ideal S1024x1024 .bf16) (((cfg0.win 2).blk t).view.emb (ix2 k j)) = _
  have he : ((cfg0.win 2).blk t).view.emb (ix2 k j) = ix2 k j := by
    funext ax; apply Fin.ext
    match ax with
    | ⟨0, _⟩ => show win0_2.index t (0 : Fin 2) * 1024 + 1 * k.val = k.val; omega
    | ⟨1, _⟩ => show win0_2.index t (1 : Fin 2) * 1024 + 1 * j.val = j.val; omega
  rw [he]
  exact v23_apply m c k j

theorem blk3 (t : Fin cfg0.N) (k : Fin 1024) (j : Fin 24) :
    (iblk m c 3 t (ix2 k j) : EReal) = ind ((argsOf m c).a6 (ix2 k j)) := by
  obtain ⟨e00, e01, e80, e81, e10, e11, e20, e21, e30, e31, e40, e41, e50, e51, e60, e61, e70, e71⟩ := idx_facts t
  show (V m c main_v34 : FVec Ideal S1024x24 .bf16) (((cfg0.win 3).blk t).view.emb (ix2 k j)) = _
  have he : ((cfg0.win 3).blk t).view.emb (ix2 k j) = ix2 k j := by
    funext ax; apply Fin.ext
    match ax with
    | ⟨0, _⟩ => show win0_3.index t (0 : Fin 2) * 1024 + 1 * k.val = k.val; omega
    | ⟨1, _⟩ => show win0_3.index t (1 : Fin 2) * 24 + 1 * j.val = j.val; omega
  rw [he]
  exact v34_apply m c k j

theorem blk4 (t : Fin cfg0.N) (z : Fin 1) (j : Fin 1024) :
    (iblk m c 4 t (ix2 z j) : EReal) = adj (Ideal.ofBits .f32 0x41800000#32) (fun k => ind ((argsOf m c).a2 (ix2 k j))) (thr ((argsOf m c).a3 (ix1 j))) := by
  obtain ⟨e00, e01, e80, e81, e10, e11, e20, e21, e30, e31, e40, e41, e50, e51, e60, e61, e70, e71⟩ := idx_facts t
  show (V m c main_v11 : FVec Ideal S1x1024 .f32) (((cfg0.win 4).blk t).view.emb (ix2 z j)) = _
  have he : ((cfg0.win 4).blk t).view.emb (ix2 z j) = ix2 z j := by
    funext ax; apply Fin.ext
    match ax with
    | ⟨0, _⟩ => show win0_4.index t (0 : Fin 2) * 1 + 1 * z.val = z.val; omega
    | ⟨1, _⟩ => show win0_4.index t (1 : Fin 2) * 1024 + 1 * j.val = j.val; omega
  rw [he]
  exact (congrArg (fun u => (V m c main_v11 : FVec Ideal S1x1024 .f32) (ix2 u j)) (Subsingleton.elim z (0 : Fin 1))).trans (v11_apply m c j)

theorem blk5 (t : Fin cfg0.N) (z : Fin 1) (j : Fin 1024) :
    (iblk m c 5 t (ix2 z j) : EReal) = adj (Ideal.ofBits .f32 0x44800000#32) (fun k => ind ((argsOf m c).a4 (ix2 k j))) (thr ((argsOf m c).a5 (ix1 j))) := by
  obtain ⟨e00, e01, e80, e81, e10, e11, e20, e21, e30, e31, e40, e41, e50, e51, e60, e61, e70, e71⟩ := idx_facts t
  show (V m c main_v22 : FVec Ideal S1x1024 .f32) (((cfg0.win 5).blk t).view.emb (ix2 z j)) = _
  have he : ((cfg0.win 5).blk t).view.emb (ix2 z j) = ix2 z j := by
    funext ax; apply Fin.ext
    match ax with
    | ⟨0, _⟩ => show win0_5.index t (0 : Fin 2) * 1 + 1 * z.val = z.val; omega
    | ⟨1, _⟩ => show win0_5.index t (1 : Fin 2) * 1024 + 1 * j.val = j.val; omega
  rw [he]
  exact (congrArg (fun u => (V m c main_v22 : FVec Ideal S1x1024 .f32) (ix2 u j)) (Subsingleton.elim z (0 : Fin 1))).trans (v22_apply m c j)

theorem blk6 (t : Fin cfg0.N) (z : Fin 1) (j : Fin 24) :
    (iblk m c 6 t (ix2 z j) : EReal) = adj (Ideal.ofBits .f32 0x44800000#32) (fun k => ind ((argsOf m c).a6 (ix2 k j))) (thr ((argsOf m c).a7 (ix1 j))) := by
  obtain ⟨e00, e01, e80, e81, e10, e11, e20, e21, e30, e31, e40, e41, e50, e51, e60, e61, e70, e71⟩ := idx_facts t
  show (V m c main_v33 : FVec Ideal S1x24 .f32) (((cfg0.win 6).blk t).view.emb (ix2 z j)) = _
  have he : ((cfg0.win 6).blk t).view.emb (ix2 z j) = ix2 z j := by
    funext ax; apply Fin.ext
    match ax with
    | ⟨0, _⟩ => show win0_6.index t (0 : Fin 2) * 1 + 1 * z.val = z.val; omega
    | ⟨1, _⟩ => show win0_6.index t (1 : Fin 2) * 24 + 1 * j.val = j.val; omega
  rw [he]
  exact (congrArg (fun u => (V m c main_v33 : FVec Ideal S1x24 .f32) (ix2 u j)) (Subsingleton.elim z (0 : Fin 1))).trans (v33_apply m c j)

theorem blk7 (t : Fin cfg0.N) (a : Fin 24) (ch : Fin 3) :
    (iblk m c 7 t (ix2 a ch) : EReal) = if a.val / 8 = ch.val then W ⟨a.val % 8, Nat.mod_lt _ (by norm_num)⟩ else 0 := by
  obtain ⟨e00, e01, e80, e81, e10, e11, e20, e21, e30, e31, e40, e41, e50, e51, e60, e61, e70, e71⟩ := idx_facts t
  show (V m c main_v58 : FVec Ideal S24x3 .bf16) (((cfg0.win 7).blk t).view.emb (ix2 a ch)) = _
  have he : ((cfg0.win 7).blk t).view.emb (ix2 a ch) = ix2 a ch := by
    funext ax; apply Fin.ext
    match ax with
    | ⟨0, _⟩ => show win0_7.index t (0 : Fin 2) * 24 + 1 * a.val = a.val; omega
    | ⟨1, _⟩ => show win0_7.index t (1 : Fin 2) * 3 + 1 * ch.val = ch.val; omega
  rw [he]
  exact Cert.Xnor.Wmap.V_main_v58_apply m c a ch

/-! ## What a point writes back, and the array after the run -/

/-- Point `t` writes back block `t` of the image. -/
theorem flushed8_eq (t : Fin cfg0.N) :
    (dats m 0 c).flushed 8 t = ((cfg0.win 8).blk t).view.read (Elt Ideal) (Flat (argsOf m c)) := by
  show (cfg0.win 8).cut (grid0.coords t) ((dats m 0 c).after 8 t) = _
  rw [after0_8]
  unfold out0_8
  rw [View.canon_unit_zero hz]
  simp only [View.ld_unit_zero (S := S1024x16) hz, View.ld_unit_zero (S := S16x1024) hz, View.ld_unit_zero (S := S1x1024) hz,
    View.ld_unit_zero (S := S1024x1024) hz, View.ld_unit_zero (S := S1024x24) hz, View.ld_unit_zero (S := S1x24) hz,
    View.ld_unit_zero (S := S24x3) hz]
  funext y
  obtain ⟨p, cc, rfl⟩ : ∃ (p : Fin 1024) (cc : Fin 3), y = ix2 p cc := ⟨y 0, y 1, eq_ix2 y⟩
  obtain ⟨e00, e01, e80, e81, -⟩ := idx_facts t
  refine (pay1_eq_Img (argsOf m c) (⟨t.val * 1024 + p.val, by have := t_lt t; have := p.isLt; omega⟩ : Fin 65536)
    (iblk m c 0 t) (iblk m c 1 t) (iblk m c 4 t) (iblk m c 2 t) (iblk m c 5 t) (iblk m c 3 t) (iblk m c 6 t) (iblk m c 7 t) p
    (blk0 m c t p) (blk1 m c t) (fun j => blk4 m c t 0 j) (blk2 m c t) (fun j => blk5 m c t 0 j) (blk3 m c t)
    (fun j => blk6 m c t 0 j) (blk7 m c t) cc).trans ?_
  show _ = Flat (argsOf m c) (((cfg0.win 8).blk t).view.emb (ix2 p cc))
  have he : ((cfg0.win 8).blk t).view.emb (ix2 p cc)
      = ix2 (⟨t.val * 1024 + p.val, by have := t_lt t; have := p.isLt; omega⟩ : Fin 65536) cc := by
    funext ax; apply Fin.ext
    match ax with
    | ⟨0, _⟩ => show win0_8.index t (0 : Fin 2) * 1024 + 1 * p.val = t.val * 1024 + p.val; omega
    | ⟨1, _⟩ => show win0_8.index t (1 : Fin 2) * 3 + 1 * cc.val = cc.val; omega
  rw [he]
  rfl

/-- An index of the result array is in point `t`'s block iff each coordinate is in the block's range. -/
theorem mem_blk8 (t : Fin cfg0.N) (i : S65536x3.Idx) :
    i ∈ ((cfg0.win 8).blk t).view.set ↔ ∀ a : Fin 2, win0_8.index t a * S1024x3.size a ≤ (i a).val ∧ (i a).val < win0_8.index t a * S1024x3.size a + S1024x3.size a := by
  show i ∈ ((View.whole main_v59).slice (win0_8.rect t)).set ↔ _
  rw [View.set_slice_whole, Rect.mem_set_unit]
  exact Iff.rfl

/-- The 64 blocks tile the array: row `i` is in the block of point `i / 1024`. -/
theorem cover8 (i : S65536x3.Idx) : ∃ t : Fin cfg0.N, (cfg0.win 8).flush t = true ∧ i ∈ ((cfg0.win 8).blk t).view.set := by
  have hi0 : (i 0).val < 65536 := (i 0).isLt
  have hi1 : (i 1).val < 3 := (i 1).isLt
  have hN : cfg0.N = 64 := Gen.N_0
  have ht : (i 0).val / 1024 < cfg0.N := by omega
  obtain ⟨e00, e01, e80, e81, -⟩ := idx_facts ⟨(i 0).val / 1024, ht⟩
  refine ⟨⟨(i 0).val / 1024, ht⟩, flush0_8 _, ?_⟩
  rw [mem_blk8]
  intro a
  match a with
  | ⟨0, _⟩ =>
    show win0_8.index ⟨(i 0).val / 1024, ht⟩ (0 : Fin 2) * 1024 ≤ (i 0).val ∧ (i 0).val < win0_8.index ⟨(i 0).val / 1024, ht⟩ (0 : Fin 2) * 1024 + 1024
    rw [e80]; show (i 0).val / 1024 * 1024 ≤ (i 0).val ∧ (i 0).val < (i 0).val / 1024 * 1024 + 1024; omega
  | ⟨1, _⟩ =>
    show win0_8.index ⟨(i 0).val / 1024, ht⟩ (1 : Fin 2) * 3 ≤ (i 1).val ∧ (i 1).val < win0_8.index ⟨(i 0).val / 1024, ht⟩ (1 : Fin 2) * 3 + 3
    rw [e81]; omega

/-- The result array after the run is the image. -/
theorem final8 : (dats m 0 c).arrAt 8 cfg0.N = Flat (argsOf m c) :=
  (dats m 0 c).arrAt_eq_of_cover 8 (Flat (argsOf m c)) (fun t _ => flushed8_eq m c t) (cover8)

end Cert.Xnor.Blocks

end
-- ==== Proof.KernelRun.lean ====
/-
  The kernel program's run, read.

  After the region the host reshapes the [65536, 3] result to [256, 256, 3], moves the channel axis first, and subtracts
  the first argument. With the result array equal to the image `Flat` (block by block, then tiled), the first result is
  `Out` — entry (c, h, w) is byte c of row 256·h + w — and the second is `Out` minus the first argument.
-/
import proofs.«165525_j41077067219414_1_alg».proof.Proof.Blocks
import Idealize.ShloMosaic.Lib.StableHlo.Run
import Idealize.ShloMosaic.Lib.Pipeline.Value

set_option maxRecDepth 16384

noncomputable section

namespace Cert.Xnor.Run

open Idealize.ShloMosaic Idealize.ShloMosaic.ValueIdx Idealize.ShloMosaic.StableHlo Idealize.ShloMosaic.TcCoe
open Cert.KernelIdeal Cert.KernelIdeal.Gen Idealize.SL.Sem Cert.Xnor.Pre

/-- The image's rows laid out as [256, 256, 3] and turned channel-first: the first result. -/
theorem tail_out (A : Args) (hc : S65536x3.ShapeCasts S256x256x3) (ht : S256x256x3.Transposes [2, 0, 1] S3x256x256) :
    transpose S3x256x256 [2, 0, 1] (shapeCast S256x256x3 (Flat A) hc) ht = Out A := by
  funext i
  have h0 : (i 0).val < 3 := (i 0).isLt
  have h1 : (i 1).val < 256 := (i 1).isLt
  have h2 : (i 2).val < 256 := (i 2).isLt
  rw [transpose_apply [2, 0, 1] (shapeCast S256x256x3 (Flat A) hc) ht i
    (ix3 (⟨(i 1).val, h1⟩ : Fin 256) (⟨(i 2).val, h2⟩ : Fin 256) (⟨(i 0).val, h0⟩ : Fin 3))
    (fun b => match b with | ⟨0, _⟩ => rfl | ⟨1, _⟩ => rfl | ⟨2, _⟩ => rfl)]
  rw [shapeCast_apply (Flat A) hc _ (ix2 (⟨(i 1).val * 256 + (i 2).val, by omega⟩ : Fin 65536) (⟨(i 0).val, h0⟩ : Fin 3))
    (by rw [Shape.rowMajor_val_two, Shape.rowMajor_val_three]; rfl)]
  rfl

variable (m : (ℓ : Loc nD τ sig) → Buf (Elt Ideal) ℓ) (c : Dev nD)

/-- The result array among the buffers the host tail starts from is the image. -/
theorem tail_v59  :
    Pipeline.withArrays (cfgs 0).spec c (V0 m c) (fun w => (dats m 0 c).arrAt w (cfgs 0).N) (Proc.devRef .tc main_v59)
      = Flat (argsOf m c) :=
  (Pipeline.withArrays_arr spec0 launch0.win.arr_inj c _ _ 8).trans (Cert.Xnor.Blocks.final8 m c)

/-- The first argument among them is as launched. -/
theorem tail_arg0 :
    Pipeline.withArrays (cfgs 0).spec c (V0 m c) (fun w => (dats m 0 c).arrAt w (cfgs 0).N) (Proc.devRef .tc main_arg0)
      = m ((c.tc : Thread nD τ).loc main_arg0) :=
  (Pipeline.withArrays_of_ne _ c (V0 m c) _ main_arg0 (by exact (by decide : ∀ w, Pipeline.arrRef spec0 w ≠ main_arg0))).trans
    (V_main_arg0 m c)

/-- The first result after the tail. -/
theorem tail61  :
    Pipeline.afterTail₀ cfgs (dats (F := Ideal) m) 0 (V0 m) [hostOps1] c main_v61 = Out (argsOf m c) := by
  unfold Pipeline.afterTail₀
  show StableHlo.after hostOps1 _ (Proc.devRef .tc main_v61) = _
  after_results
  rw [tail_v59 m c]
  exact tail_out (argsOf m c) _ _

/-- The second result after the tail. -/
theorem tail62  :
    Pipeline.afterTail₀ cfgs (dats (F := Ideal) m) 0 (V0 m) [hostOps1] c main_v62
      = Err (argsOf m c) (m ((c.tc : Thread nD τ).loc main_arg0)) := by
  unfold Pipeline.afterTail₀
  show StableHlo.after hostOps1 _ (Proc.devRef .tc main_v62) = _
  after_results
  rw [tail_v59 m c, tail_arg0 m c]
  exact congrArg (fun x => subf x (m ((c.tc : Thread nD τ).loc main_arg0))) (tail_out (argsOf m c) _ _)

/-! ## The kernel's run, with both results named -/

variable (ρ : Dev nD → PrngReg)

/-- Every weakly fair execution of the idealized kernel program terminates with the first result at the image, the
    second at the image minus the first argument, and the arguments unchanged. -/
theorem kernel_run : θ_run defs (onTc (τ := τ) (main (F := Ideal))) ⟨m, fun _ => 0, ρ⟩ (fun r => ∀ c : Dev nD,
      r.2.mem ((c.tc : Thread nD τ).loc main_v61) = Out (argsOf m c)
      ∧ r.2.mem ((c.tc : Thread nD τ).loc main_v62) = Err (argsOf m c) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v61 (Pipeline.mem_restRefs_of main_v61 (by decide) (by decide))).trans (tail61 m c),
      ((h c).2 main_v62 (Pipeline.mem_restRefs_of main_v62 (by decide) (by decide))).trans (tail62 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.Xnor.Run

end
-- ==== Proof.lean ====
/-
  The certificate of a three-layer agreement-count network on the 65536 position codes of a 256 × 256 image, decoded to
  three bytes per position: a one-region kernel program against its plain reference, on the extended reals.

  Both programs compute, for each position r, three layers "count the positions where the row and each mask column agree,
  compare with the column's threshold", and read the last layer's 24 bits as three bytes, most significant bit first
  (Proof/Spec.lean states this function once, `Out`, and the second result `Err` = `Out` minus the first argument).
  The reference writes the count as x·m + (1 − x)·(1 − m), two products per layer. The kernel uses one product per layer:
  since ∑ₖ [xₖ mₖ + (1 − xₖ)(1 − mₖ)] = 2 ∑ₖ xₖ mₖ + n − ∑ₖ xₖ − ∑ₖ mₖ, the test "count > t" is
  "∑ₖ xₖ mₖ − (∑ₖ xₖ)/2 > (t + ∑ₖ mₖ − n)/2", whose right side the host prepares once per column (Proof/Laws.lean
  `ktest_adj`; every entry is a bit or an integer, hence a real number, which is what the identity needs on the extended
  reals). It also decodes by a fourth product, against a 24 × 3 matrix holding 2^(7 − a mod 8) at (a, a div 8) and zero
  elsewhere, which the host builds by a scatter (Proof/WeightMap.lean over Proof/LibScatterSet.lean); summed over the 24
  bits this is the byte's weighted sum (Proof/Laws.lean `decode`).

  Kernel side: the body at an index (Proof/KernelBody.lean), the host-prepared operands at an index (Proof/Prelude.lean),
  the two joined per block (Proof/Bridge.lean), the 64 blocks tiled into the result array (Proof/Blocks.lean), and the
  host operations after the region (Proof/KernelRun.lean). Reference side: its run and its operations read at an index
  (Proof/RefRunP.lean, Proof/RefReadP.lean), and that its last stage is `Out` (Proof/RefSpec.lean).
  The two ledger entries of the idealization are the rule's own statement: narrowing a value to 16 bits and widening it
  back is the identity on the extended reals.
-/
import proofs.«165525_j41077067219414_1_alg».proof.Defs
import proofs.«165525_j41077067219414_1_alg».proof.Proof.Gen.Kernel
import proofs.«165525_j41077067219414_1_alg».proof.Proof.Gen.Kernel.Skeleton
import proofs.«165525_j41077067219414_1_alg».proof.Proof.Gen.Kernel.Launch
import proofs.«165525_j41077067219414_1_alg».proof.Proof.Gen.Kernel.Points
import proofs.«165525_j41077067219414_1_alg».proof.Proof.Gen.Kernel.Frame
import proofs.«165525_j41077067219414_1_alg».proof.Proof.Gen.KernelIdeal
import proofs.«165525_j41077067219414_1_alg».proof.Proof.Gen.KernelIdeal.Skeleton
import proofs.«165525_j41077067219414_1_alg».proof.Proof.Gen.KernelIdeal.Launch
import proofs.«165525_j41077067219414_1_alg».proof.Proof.Gen.KernelIdeal.Points
import proofs.«165525_j41077067219414_1_alg».proof.Proof.Gen.KernelIdeal.Frame
import proofs.«165525_j41077067219414_1_alg».proof.Proof.Gen.ReferenceIdeal
import proofs.«165525_j41077067219414_1_alg».proof.Proof.RefRunP
import proofs.«165525_j41077067219414_1_alg».proof.Proof.RefReadP
import proofs.«165525_j41077067219414_1_alg».proof.Proof.RefSpec
import proofs.«165525_j41077067219414_1_alg».proof.Proof.KernelRun
import proofs.«165525_j41077067219414_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the two results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.ValueP.run (F := Ideal) m ρ)

/-- The ledger's two entries: a value narrowed to 16 bits and widened back is the value itself on the extended reals. -/
theorem preserves : Cert.preserves_Kernel_KernelIdeal :=
  ⟨IdealRules.truncf_extf.statement Cert.KernelIdeal.S1024x1024 .f32 .bf16,
    IdealRules.truncf_extf.statement Cert.KernelIdeal.S1024x1024 .f32 .bf16⟩

/-- Both programs end with the image `Out` and with `Out` minus the first argument, of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Xnor.Out (Cert.Xnor.Pre.argsOf m c),
    fun c => Cert.Xnor.Err (Cert.Xnor.Pre.argsOf m c) (m ((c.tc : Thread Cert.KernelIdeal.nD Cert.KernelIdeal.τ).loc Cert.KernelIdeal.main_arg0)),
    Cert.Xnor.Run.kernel_run m ρ, ?_⟩
  refine (θ_run Cert.ReferenceIdeal.defs _ _).mono (fun _ h c => ?_) (Cert.ReferenceIdeal.ValueP.run (F := Ideal) m' ρ')
  obtain ⟨h0, h1, h2, h3, h4, h5, h6, h7⟩ := hagree c
  refine ⟨?_, ?_, (h c).2.2⟩
  · rw [(h c).1, Cert.ReferenceIdeal.ReadP.val_main_v55_eq, Cert.Xnor.Ref.ref_out, h1, h2, h3, h4, h5, h6, h7]
    rfl
  · rw [(h c).2.1, Cert.ReferenceIdeal.ReadP.val_main_v56_eq, Cert.Xnor.Ref.ref_err, h0, h1, h2, h3, h4, h5, h6, h7]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
